-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v71)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v71) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v105) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x64 : Shape := ⟨2, ![100000, 64]⟩
abbrev S2x1600000 : Shape := ⟨2, ![2, 1600000]⟩
abbrev S64x64 : Shape := ⟨2, ![64, 64]⟩
abbrev S64 : Shape := ⟨1, ![64]⟩
abbrev S64x1 : Shape := ⟨2, ![64, 1]⟩
abbrev S1 : Shape := ⟨1, ![1]⟩
abbrev S_ : Shape := ⟨0, ![]⟩

class Facts : Prop where
  bcast_S_S100000x64 : S_.BroadcastsInDim S100000x64 (![] : Fin 0 → Fin S100000x64.rank)
  reducesTo_S100000x64_S_d0_1 : S100000x64.ReducesTo [0, 1] S_
  h_S_ : 0 < S_.numel
  bcast_S_S64x64 : S_.BroadcastsInDim S64x64 (![] : Fin 0 → Fin S64x64.rank)
  reducesTo_S64x64_S_d0_1 : S64x64.ReducesTo [0, 1] S_
  bcast_S_S64 : S_.BroadcastsInDim S64 (![] : Fin 0 → Fin S64.rank)
  reducesTo_S64_S_d0 : S64.ReducesTo [0] S_
  bcast_S_S64x1 : S_.BroadcastsInDim S64x1 (![] : Fin 0 → Fin S64x1.rank)
  reducesTo_S64x1_S_d0_1 : S64x1.ReducesTo [0, 1] S_
  bcast_S_S1 : S_.BroadcastsInDim S1 (![] : Fin 0 → Fin S1.rank)
  reducesTo_S1_S_d0 : S1.ReducesTo [0] S_

variable [Facts]

def fn_part1 {F : FTy → Type} [FloatOps F] (main_arg5 : FVec F S64 .f32) (main_arg6 : FVec F S64x1 .f32) (main_arg7 : FVec F S1 .f32) (main_v13 : IVec S_ 1) (main_v16 : IVec S64x64 1) : IVec S_ 1 :=
  let main_c_5 : IVec S_ 1 := constantI S_ 1 1#1
  let main_v17 : IVec S_ 1 := (fun x v => Host.reduce IntOp.andi x v reducesTo_S64x64_S_d0_1 h_S_) main_v16 main_c_5
  let main_v18 : IVec S_ 1 := andi main_v13 main_v17
  let main_v19 : FVec F S64 .f32 := Host.absf main_arg5
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S64x1 .f32 := Host.absf main_arg6
  let main_cst_8 : FVec F S_ .f32 := constant S_ .f32 0x7F800000#32
  let main_v25 : FVec F S64x1 .f32 := broadcastInDim S64x1 ![] bcast_S_S64x1 main_cst_8
  let main_v26 : IVec S64x1 1 := cmpf .olt main_v24 main_v25
  let main_c_9 : IVec S_ 1 := constantI S_ 1 1#1
  let main_v27 : IVec S_ 1 := (fun x v => Host.reduce IntOp.andi x v reducesTo_S64x1_S_d0_1 h_S_) main_v26 main_c_9
  let main_v28 : IVec S_ 1 := andi main_v23 main_v27
  let main_v29 : FVec F S1 .f32 := Host.absf main_arg7
  let main_cst_10 : FVec F S_ .f32 := constant S_ .f32 0x7F800000#32
  let main_v30 : FVec F S1 .f32 := broadcastInDim S1 ![] bcast_S_S1 main_cst_10
  let main_v31 : IVec S1 1 := cmpf .olt main_v29 main_v30
  let main_c_11 : IVec S_ 1 := constantI S_ 1 1#1
  let main_v32 : IVec S_ 1 := (fun x v => Host.reduce IntOp.andi x v reducesTo_S1_S_d0 h_S_) main_v31 main_c_11
  let main_v33 : IVec S_ 1 := andi main_v28 main_v32
  main_v33

def fn {F : FTy → Type} [FloatOps F] (main_arg0 : FVec F S100000x64 .f32) (main_arg1 : IVec S2x1600000 32) (main_arg2 : FVec F S64x64 .f32) (main_arg3 : FVec F S64 .f32) (main_arg4 : FVec F S64x64 .f32) (main_arg5 : FVec F S64 .f32) (main_arg6 : FVec F S64x1 .f32) (main_arg7 : FVec F S1 .f32) : IVec S_ 1 :=
  let main_v0 : FVec F S100000x64 .f32 := Host.absf main_arg0
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_c : IVec S_ 1 := constantI S_ 1 1#1
  let main_v3 : IVec S_ 1 := (fun x v => Host.reduce IntOp.andi x v reducesTo_S100000x64_S_d0_1 h_S_) main_v2 main_c
  let main_v4 : FVec F S64x64 .f32 := Host.absf main_arg2
  let main_cst_0 : FVec F S_ .f32 := constant S_ .f32 0x7F800000#32
  let main_v5 : FVec F S64x64 .f32 := broadcastInDim S64x64 ![] bcast_S_S64x64 main_cst_0
  let main_v6 : IVec S64x64 1 := cmpf .olt main_v4 main_v5
  let main_c_1 : IVec S_ 1 := constantI S_ 1 1#1
  let main_v7 : IVec S_ 1 := (fun x v => Host.reduce IntOp.andi x v reducesTo_S64x64_S_d0_1 h_S_) main_v6 main_c_1
  let main_v8 : IVec S_ 1 := andi main_v3 main_v7
  let main_v9 : FVec F S64 .f32 := Host.absf main_arg3
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64x64 .f32 := Host.absf main_arg4
  let main_cst_4 : FVec F S_ .f32 := constant S_ .f32 0x7F800000#32
  let main_v15 : FVec F S64x64 .f32 := broadcastInDim S64x64 ![] bcast_S_S64x64 main_cst_4
  let main_v16 : IVec S64x64 1 := cmpf .olt main_v14 main_v15
  fn_part1 (F := F) main_arg5 main_arg6 main_arg7 main_v13 main_v16
-- ==== Kernel.lean ====
abbrev S100000x64 : Shape := ⟨2, ![100000, 64]⟩
abbrev S2x1600000 : Shape := ⟨2, ![2, 1600000]⟩
abbrev S64x64 : Shape := ⟨2, ![64, 64]⟩
abbrev S64 : Shape := ⟨1, ![64]⟩
abbrev S64x1 : Shape := ⟨2, ![64, 1]⟩
abbrev S1 : Shape := ⟨1, ![1]⟩
abbrev S1x1600000 : Shape := ⟨2, ![1, 1600000]⟩
abbrev S1600000 : Shape := ⟨1, ![1600000]⟩
abbrev S100000 : Shape := ⟨1, ![100000]⟩
abbrev S1700000 : Shape := ⟨1, ![1700000]⟩
abbrev S_ : Shape := ⟨0, ![]⟩
abbrev S1700000x1 : Shape := ⟨2, ![1700000, 1]⟩
abbrev S2000x64 : Shape := ⟨2, ![2000, 64]⟩
abbrev S1700000x64 : Shape := ⟨2, ![1700000, 64]⟩
abbrev S1x64 : Shape := ⟨2, ![1, 64]⟩
abbrev S64x128 : Shape := ⟨2, ![64, 128]⟩
abbrev S128 : Shape := ⟨1, ![128]⟩
abbrev S1x128 : Shape := ⟨2, ![1, 128]⟩
abbrev S100000x128 : Shape := ⟨2, ![100000, 128]⟩
abbrev S2000x128 : Shape := ⟨2, ![2000, 128]⟩
abbrev S100000x1 : Shape := ⟨2, ![100000, 1]⟩

abbrev nBuf : Space → Nat
  | .hbm => 102
  | .vmem => 26
  | .smem => 0
  | _ => 0

abbrev bufTy : (tb : Table) → Fin (tcTables nBuf tb) → BufTy
  | .hbm, ⟨0, _⟩ => ⟨S100000x64, .f32⟩
  | .hbm, ⟨1, _⟩ => ⟨S2x1600000, .i32⟩
  | .hbm, ⟨2, _⟩ => ⟨S64x64, .f32⟩
  | .hbm, ⟨3, _⟩ => ⟨S64, .f32⟩
  | .hbm, ⟨4, _⟩ => ⟨S64x64, .f32⟩
  | .hbm, ⟨5, _⟩ => ⟨S64, .f32⟩
  | .hbm, ⟨6, _⟩ => ⟨S64x1, .f32⟩
  | .hbm, ⟨7, _⟩ => ⟨S1, .f32⟩
  | .hbm, ⟨8, _⟩ => ⟨S1x1600000, .i32⟩
  | .hbm, ⟨9, _⟩ => ⟨S1600000, .i32⟩
  | .hbm, ⟨10, _⟩ => ⟨S1x1600000, .i32⟩
  | .hbm, ⟨11, _⟩ => ⟨S1600000, .i32⟩
  | .hbm, ⟨12, _⟩ => ⟨S100000, .i32⟩
  | .hbm, ⟨13, _⟩ => ⟨S1700000, .i32⟩
  | .hbm, ⟨14, _⟩ => ⟨S1700000, .i32⟩
  | .hbm, ⟨15, _⟩ => ⟨S_, .f32⟩
  | .hbm, ⟨16, _⟩ => ⟨S100000, .f32⟩
  | .hbm, ⟨17, _⟩ => ⟨S_, .i32⟩
  | .hbm, ⟨18, _⟩ => ⟨S1700000, .i32⟩
  | .hbm, ⟨19, _⟩ => ⟨S1700000, .i1⟩
  | .hbm, ⟨20, _⟩ => ⟨S_, .i32⟩
  | .hbm, ⟨21, _⟩ => ⟨S1700000, .i32⟩
  | .hbm, ⟨22, _⟩ => ⟨S1700000, .i32⟩
  | .hbm, ⟨23, _⟩ => ⟨S1700000, .i32⟩
  | .hbm, ⟨24, _⟩ => ⟨S1700000x1, .i32⟩
  | .hbm, ⟨25, _⟩ => ⟨S_, .f32⟩
  | .hbm, ⟨26, _⟩ => ⟨S1700000, .f32⟩
  | .hbm, ⟨27, _⟩ => ⟨S100000, .f32⟩
  | .hbm, ⟨28, _⟩ => ⟨S_, .f32⟩
  | .hbm, ⟨29, _⟩ => ⟨S100000, .f32⟩
  | .hbm, ⟨30, _⟩ => ⟨S100000, .i1⟩
  | .hbm, ⟨31, _⟩ => ⟨S100000, .f32⟩
  | .hbm, ⟨32, _⟩ => ⟨S_, .f32⟩
  | .hbm, ⟨33, _⟩ => ⟨S_, .f32⟩
  | .hbm, ⟨34, _⟩ => ⟨S100000, .f32⟩
  | .hbm, ⟨35, _⟩ => ⟨S100000, .f32⟩
  | .hbm, ⟨36, _⟩ => ⟨S_, .i32⟩
  | .hbm, ⟨37, _⟩ => ⟨S1700000, .i32⟩
  | .hbm, ⟨38, _⟩ => ⟨S1700000, .i1⟩
  | .hbm, ⟨39, _⟩ => ⟨S_, .i32⟩
  | .hbm, ⟨40, _⟩ => ⟨S1700000, .i32⟩
  | .hbm, ⟨41, _⟩ => ⟨S1700000, .i32⟩
  | .hbm, ⟨42, _⟩ => ⟨S1700000, .i32⟩
  | .hbm, ⟨43, _⟩ => ⟨S1700000x1, .i32⟩
  | .hbm, ⟨44, _⟩ => ⟨S1700000, .f32⟩
  | .hbm, ⟨45, _⟩ => ⟨S_, .i32⟩
  | .hbm, ⟨46, _⟩ => ⟨S1700000, .i32⟩
  | .hbm, ⟨47, _⟩ => ⟨S1700000, .i1⟩
  | .hbm, ⟨48, _⟩ => ⟨S_, .i32⟩
  | .hbm, ⟨49, _⟩ => ⟨S1700000, .i32⟩
  | .hbm, ⟨50, _⟩ => ⟨S1700000, .i32⟩
  | .hbm, ⟨51, _⟩ => ⟨S1700000, .i32⟩
  | .hbm, ⟨52, _⟩ => ⟨S1700000x1, .i32⟩
  | .hbm, ⟨53, _⟩ => ⟨S1700000, .f32⟩
  | .hbm, ⟨54, _⟩ => ⟨S1700000, .f32⟩
  | .hbm, ⟨55, _⟩ => ⟨S100000x64, .f32⟩
  | .hbm, ⟨56, _⟩ => ⟨S_, .i32⟩
  | .hbm, ⟨57, _⟩ => ⟨S1700000, .i32⟩
  | .hbm, ⟨58, _⟩ => ⟨S1700000, .i1⟩
  | .hbm, ⟨59, _⟩ => ⟨S_, .i32⟩
  | .hbm, ⟨60, _⟩ => ⟨S1700000, .i32⟩
  | .hbm, ⟨61, _⟩ => ⟨S1700000, .i32⟩
  | .hbm, ⟨62, _⟩ => ⟨S1700000, .i32⟩
  | .hbm, ⟨63, _⟩ => ⟨S1700000x1, .i32⟩
  | .hbm, ⟨64, _⟩ => ⟨S1700000x64, .f32⟩
  | .hbm, ⟨65, _⟩ => ⟨S1700000x1, .f32⟩
  | .hbm, ⟨66, _⟩ => ⟨S1700000x64, .f32⟩
  | .hbm, ⟨67, _⟩ => ⟨S1700000x64, .f32⟩
  | .hbm, ⟨68, _⟩ => ⟨S_, .f32⟩
  | .hbm, ⟨69, _⟩ => ⟨S100000x64, .f32⟩
  | .hbm, ⟨70, _⟩ => ⟨S1700000x1, .i32⟩
  | .hbm, ⟨71, _⟩ => ⟨S100000x64, .f32⟩
  | .hbm, ⟨72, _⟩ => ⟨S1x64, .f32⟩
  | .hbm, ⟨73, _⟩ => ⟨S100000x64, .f32⟩
  | .hbm, ⟨74, _⟩ => ⟨S100000x64, .f32⟩
  | .hbm, ⟨75, _⟩ => ⟨S_, .i32⟩
  | .hbm, ⟨76, _⟩ => ⟨S1700000, .i32⟩
  | .hbm, ⟨77, _⟩ => ⟨S1700000, .i1⟩
  | .hbm, ⟨78, _⟩ => ⟨S_, .i32⟩
  | .hbm, ⟨79, _⟩ => ⟨S1700000, .i32⟩
  | .hbm, ⟨80, _⟩ => ⟨S1700000, .i32⟩
  | .hbm, ⟨81, _⟩ => ⟨S1700000, .i32⟩
  | .hbm, ⟨82, _⟩ => ⟨S1700000x1, .i32⟩
  | .hbm, ⟨83, _⟩ => ⟨S1700000x64, .f32⟩
  | .hbm, ⟨84, _⟩ => ⟨S1700000x1, .f32⟩
  | .hbm, ⟨85, _⟩ => ⟨S1700000x64, .f32⟩
  | .hbm, ⟨86, _⟩ => ⟨S1700000x64, .f32⟩
  | .hbm, ⟨87, _⟩ => ⟨S_, .f32⟩
  | .hbm, ⟨88, _⟩ => ⟨S100000x64, .f32⟩
  | .hbm, ⟨89, _⟩ => ⟨S1700000x1, .i32⟩
  | .hbm, ⟨90, _⟩ => ⟨S100000x64, .f32⟩
  | .hbm, ⟨91, _⟩ => ⟨S1x64, .f32⟩
  | .hbm, ⟨92, _⟩ => ⟨S100000x64, .f32⟩
  | .hbm, ⟨93, _⟩ => ⟨S_, .i32⟩
  | .hbm, ⟨94, _⟩ => ⟨S_, .f32⟩
  | .hbm, ⟨95, _⟩ => ⟨S64x128, .f32⟩
  | .hbm, ⟨96, _⟩ => ⟨S_, .i32⟩
  | .hbm, ⟨97, _⟩ => ⟨S_, .f32⟩
  | .hbm, ⟨98, _⟩ => ⟨S128, .f32⟩
  | .hbm, ⟨99, _⟩ => ⟨S1x128, .f32⟩
  | .hbm, ⟨100, _⟩ => ⟨S100000x128, .f32⟩
  | .hbm, ⟨101, _⟩ => ⟨S100000x1, .f32⟩
  | .local _ .vmem, ⟨0, _⟩ => ⟨S2000x64, .f32⟩
  | .local _ .vmem, ⟨1, _⟩ => ⟨S2000x64, .f32⟩
  | .local _ .vmem, ⟨2, _⟩ => ⟨S64x64, .f32⟩
  | .local _ .vmem, ⟨3, _⟩ => ⟨S2000x64, .f32⟩
  | .local _ .vmem, ⟨4, _⟩ => ⟨S2000x64, .f32⟩
  | .local _ .vmem, ⟨5, _⟩ => ⟨S2000x64, .f32⟩
  | .local _ .vmem, ⟨6, _⟩ => ⟨S2000x64, .f32⟩
  | .local _ .vmem, ⟨7, _⟩ => ⟨S1x64, .f32⟩
  | .local _ .vmem, ⟨8, _⟩ => ⟨S2000x64, .f32⟩
  | .local _ .vmem, ⟨9, _⟩ => ⟨S2000x64, .f32⟩
  | .local _ .vmem, ⟨10, _⟩ => ⟨S2000x64, .f32⟩
  | .local _ .vmem, ⟨11, _⟩ => ⟨S2000x64, .f32⟩
  | .local _ .vmem, ⟨12, _⟩ => ⟨S64x64, .f32⟩
  | .local _ .vmem, ⟨13, _⟩ => ⟨S2000x64, .f32⟩
  | .local _ .vmem, ⟨14, _⟩ => ⟨S2000x64, .f32⟩
  | .local _ .vmem, ⟨15, _⟩ => ⟨S2000x64, .f32⟩
  | .local _ .vmem, ⟨16, _⟩ => ⟨S2000x64, .f32⟩
  | .local _ .vmem, ⟨17, _⟩ => ⟨S1x64, .f32⟩
  | .local _ .vmem, ⟨18, _⟩ => ⟨S2000x64, .f32⟩
  | .local _ .vmem, ⟨19, _⟩ => ⟨S2000x64, .f32⟩
  | .local _ .vmem, ⟨20, _⟩ => ⟨S2000x64, .f32⟩
  | .local _ .vmem, ⟨21, _⟩ => ⟨S2000x64, .f32⟩
  | .local _ .vmem, ⟨22, _⟩ => ⟨S64x128, .f32⟩
  | .local _ .vmem, ⟨23, _⟩ => ⟨S1x128, .f32⟩
  | .local _ .vmem, ⟨24, _⟩ => ⟨S2000x128, .f32⟩
  | .local _ .vmem, ⟨25, _⟩ => ⟨S2000x128, .f32⟩
  | _, _ => ⟨S100000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst : Ref sig .tc := ⟨.hbm, 15, rfl⟩
abbrev main_v7 : Ref sig .tc := ⟨.hbm, 16, rfl⟩
abbrev main_c : Ref sig .tc := ⟨.hbm, 17, rfl⟩
abbrev main_v8 : Ref sig .tc := ⟨.hbm, 18, rfl⟩
abbrev main_v9 : Ref sig .tc := ⟨.hbm, 19, rfl⟩
abbrev main_c_0 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_1 : Ref sig .tc := ⟨.hbm, 25, rfl⟩
abbrev main_v14 : Ref sig .tc := ⟨.hbm, 26, rfl⟩
abbrev main_v15 : Ref sig .tc := ⟨.hbm, 27, rfl⟩
abbrev main_cst_2 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_cst_3 : Ref sig .tc := ⟨.hbm, 32, rfl⟩
abbrev main_call0_v0 : Ref sig .tc := ⟨.hbm, 33, rfl⟩
abbrev main_call0_v1 : Ref sig .tc := ⟨.hbm, 34, rfl⟩
abbrev main_v19 : Ref sig .tc := ⟨.hbm, 35, rfl⟩
abbrev main_c_4 : Ref sig .tc := ⟨.hbm, 36, rfl⟩
abbrev main_v20 : Ref sig .tc := ⟨.hbm, 37, rfl⟩
abbrev main_v21 : Ref sig .tc := ⟨.hbm, 38, rfl⟩
abbrev main_c_5 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_c_6 : Ref sig .tc := ⟨.hbm, 45, rfl⟩
abbrev main_v27 : Ref sig .tc := ⟨.hbm, 46, rfl⟩
abbrev main_v28 : Ref sig .tc := ⟨.hbm, 47, rfl⟩
abbrev main_c_7 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_c_8 : Ref sig .tc := ⟨.hbm, 56, rfl⟩
abbrev main_v36 : Ref sig .tc := ⟨.hbm, 57, rfl⟩
abbrev main_v37 : Ref sig .tc := ⟨.hbm, 58, rfl⟩
abbrev main_c_9 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_cst_10 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_c_11 : Ref sig .tc := ⟨.hbm, 75, rfl⟩
abbrev main_v52 : Ref sig .tc := ⟨.hbm, 76, rfl⟩
abbrev main_v53 : Ref sig .tc := ⟨.hbm, 77, rfl⟩
abbrev main_c_12 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_v59 : Ref sig .tc := ⟨.hbm, 84, rfl⟩
abbrev main_v60 : Ref sig .tc := ⟨.hbm, 85, rfl⟩
abbrev main_v61 : Ref sig .tc := ⟨.hbm, 86, rfl⟩
abbrev main_cst_13 : Ref sig .tc := ⟨.hbm, 87, rfl⟩
abbrev main_v62 : Ref sig .tc := ⟨.hbm, 88, rfl⟩
abbrev main_v63 : Ref sig .tc := ⟨.hbm, 89, rfl⟩
abbrev main_v64 : Ref sig .tc := ⟨.hbm, 90, rfl⟩
abbrev main_v65 : Ref sig .tc := ⟨.hbm, 91, rfl⟩
abbrev main_v66 : Ref sig .tc := ⟨.hbm, 92, rfl⟩
abbrev main_c_14 : Ref sig .tc := ⟨.hbm, 93, rfl⟩
abbrev main_call1_v0 : Ref sig .tc := ⟨.hbm, 94, rfl⟩
abbrev main_v67 : Ref sig .tc := ⟨.hbm, 95, rfl⟩
abbrev main_c_15 : Ref sig .tc := ⟨.hbm, 96, rfl⟩
abbrev main_call2_v0 : Ref sig .tc := ⟨.hbm, 97, rfl⟩
abbrev main_v68 : Ref sig .tc := ⟨.hbm, 98, rfl⟩
abbrev main_v69 : Ref sig .tc := ⟨.hbm, 99, rfl⟩
abbrev main_v70 : Ref sig .tc := ⟨.hbm, 100, rfl⟩
abbrev main_v71 : Ref sig .tc := ⟨.hbm, 101, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg2_0 : Ref sig .tc := ⟨.vmem, 13, rfl⟩
abbrev cc2_stg2_1 : Ref sig .tc := ⟨.vmem, 14, rfl⟩
abbrev cc3_stg0_0 : Ref sig .tc := ⟨.vmem, 15, rfl⟩
abbrev cc3_stg0_1 : Ref sig .tc := ⟨.vmem, 16, rfl⟩
abbrev cc3_stg1_0 : Ref sig .tc := ⟨.vmem, 17, rfl⟩
abbrev cc3_stg2_0 : Ref sig .tc := ⟨.vmem, 18, rfl⟩
abbrev cc3_stg2_1 : Ref sig .tc := ⟨.vmem, 19, rfl⟩
abbrev cc4_stg0_0 : Ref sig .tc := ⟨.vmem, 20, rfl⟩
abbrev cc4_stg0_1 : Ref sig .tc := ⟨.vmem, 21, rfl⟩
abbrev cc4_stg1_0 : Ref sig .tc := ⟨.vmem, 22, rfl⟩
abbrev cc4_stg2_0 : Ref sig .tc := ⟨.vmem, 23, rfl⟩
abbrev cc4_stg3_0 : Ref sig .tc := ⟨.vmem, 24, rfl⟩
abbrev cc4_stg3_1 : Ref sig .tc := ⟨.vmem, 25, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem2_0 : DmaSem sig := 13
abbrev cc2_sem2_1 : DmaSem sig := 14
abbrev cc3_sem0_0 : DmaSem sig := 15
abbrev cc3_sem0_1 : DmaSem sig := 16
abbrev cc3_sem1_0 : DmaSem sig := 17
abbrev cc3_sem2_0 : DmaSem sig := 18
abbrev cc3_sem2_1 : DmaSem sig := 19
abbrev cc4_sem0_0 : DmaSem sig := 20
abbrev cc4_sem0_1 : DmaSem sig := 21
abbrev cc4_sem1_0 : DmaSem sig := 22
abbrev cc4_sem2_0 : DmaSem sig := 23
abbrev cc4_sem3_0 : DmaSem sig := 24
abbrev cc4_sem3_1 : DmaSem sig := 25

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2000x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![50], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S2000x64 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![50], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S64x64 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S2000x64 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![50], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S2000x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x64 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S2000x64 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev grid4 : Pipeline.Grid := ⟨1, ![50], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S2000x64 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S64x128 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 1 → Memref sig .tc .vmem S1x128 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 2 → Memref sig .tc .vmem S2000x128 .f32 := fun | 0 => Memref.whole cc4_stg3_0 | 1 => Memref.whole cc4_stg3_1 | ⟨_ + 2, h⟩ => absurd h (Nat.not_lt.2 (Nat.le_add_left _ _))
abbrev sem4_3 : Fin 2 → DmaSem sig := fun | 0 => cc4_sem3_0 | 1 => cc4_sem3_1 | ⟨_ + 2, h⟩ => absurd h (Nat.not_lt.2 (Nat.le_add_left _ _))
abbrev reads4_3 : Fin grid4.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  concatenates_S1600000_S100000_S1700000_d0 : Shape.Concatenates [S1600000, S100000] S1700000 0
  bcast_S_S100000 : S_.BroadcastsInDim S100000 (![] : Fin 0 → Fin S100000.rank)
  bcast_S_S1700000 : S_.BroadcastsInDim S1700000 (![] : Fin 0 → Fin S1700000.rank)
  bcast_S1700000_S1700000x1_0 : S1700000.BroadcastsInDim S1700000x1 (![0] : Fin 1 → Fin S1700000x1.rank)
  inb_S2000x64_S2000x64_0_0 : ∀ a, (![0, 0] : Fin 2 → Nat) a + S2000x64.size a ≤ S2000x64.size a
  h_S2000x64 : 0 < S2000x64.numel
  bitsLt_bf16_f32 : FTy.bits .bf16 < FTy.bits .f32
  inb_S64x64_S64x64_0_0 : ∀ a, (![0, 0] : Fin 2 → Nat) a + S64x64.size a ≤ S64x64.size a
  h_S64x64 : 0 < S64x64.numel
  bcast_S1700000x1_S1700000x64_0_1 : S1700000x1.BroadcastsInDim S1700000x64 (![0, 1] : Fin 2 → Fin S1700000x64.rank)
  bcast_S_S100000x64 : S_.BroadcastsInDim S100000x64 (![] : Fin 0 → Fin S100000x64.rank)
  shapeCasts_S64_S1x64 : S64.ShapeCasts S1x64
  shapeCasts_S2000x64_S2000x64 : S2000x64.ShapeCasts S2000x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S2000x64 : S1x64.Broadcasts S2000x64
  pads_S64x1_S64x128_000_01270 : S64x1.Pads (![0, 0] : Fin 2 → Nat) ![0, 127] ![0, 0] S64x128
  h_S_ : 0 < S_.numel
  pads_S1_S128_01270 : S1.Pads (![0] : Fin 1 → Nat) ![127] ![0] S128
  shapeCasts_S128_S1x128 : S128.ShapeCasts S1x128
  inb_S64x128_S64x128_0_0 : ∀ a, (![0, 0] : Fin 2 → Nat) a + S64x128.size a ≤ S64x128.size a
  h_S64x128 : 0 < S64x128.numel
  shapeCasts_S64x128_S64x128 : S64x128.ShapeCasts S64x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S2000x128 : S1x128.Broadcasts S2000x128
  inb_S2000x128_S2000x128_0_0 : ∀ a, (![0, 0] : Fin 2 → Nat) a + S2000x128.size a ≤ S2000x128.size a
  h_S2000x128 : 0 < S2000x128.numel
  slices_S100000x128_S100000x1_0_0 : S100000x128.Slices ![0, 0] S100000x1
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S2000x64_S64x64_S2000x64_1_0_0_1_n_n_wf : DotDims.WF S2000x64 S64x64 S2000x64 [1] [0] [0] [1] [] []
  gather_S100000x64_S1700000x1_S1700000x64_1_0_n_n_0_1_164_wf : GatherDims.WF S100000x64 S1700000x1 S1700000x64 [1] [0] [] [0] [] 1 ![1, 64]
  scatter_S100000x64_S1700000x1_S1700000x64_1_0_0_1_wf : ScatterDims.WF S100000x64 S1700000x1 S1700000x64 [1] [0] [0] 1
  dot_S2000x64_S64x128_S2000x128_1_0_0_1_n_n_wf : DotDims.WF S2000x64 S64x128 S2000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x64.size a ≤ S100000x64.size a
  hwx0_0 : ∀ i : grid0.Coords, EltTy.bits .f32 = 32 ∨ (Rect.block (s := S100000x64) S2000x64.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x64.size a ≤ S64x64.size a
  hwx0_1 : ∀ i : grid0.Coords, EltTy.bits .f32 = 32 ∨ (Rect.block (s := S64x64) S64x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x64.size a ≤ S100000x64.size a
  hwx0_2 : ∀ i : grid0.Coords, EltTy.bits .f32 = 32 ∨ (Rect.block (s := S100000x64) S2000x64.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x64.size a ≤ S100000x64.size a
  hwx1_0 : ∀ i : grid1.Coords, EltTy.bits .f32 = 32 ∨ (Rect.block (s := S100000x64) S2000x64.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x64.size a ≤ S1x64.size a
  hwx1_1 : ∀ i : grid1.Coords, EltTy.bits .f32 = 32 ∨ (Rect.block (s := S1x64) S1x64.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S2000x64.size a ≤ S100000x64.size a
  hwx1_2 : ∀ i : grid1.Coords, EltTy.bits .f32 = 32 ∨ (Rect.block (s := S100000x64) S2000x64.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x64.size a ≤ S100000x64.size a
  hwx2_0 : ∀ i : grid2.Coords, EltTy.bits .f32 = 32 ∨ (Rect.block (s := S100000x64) S2000x64.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S64x64.size a ≤ S64x64.size a
  hwx2_1 : ∀ i : grid2.Coords, EltTy.bits .f32 = 32 ∨ (Rect.block (s := S64x64) S64x64.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S2000x64.size a ≤ S100000x64.size a
  hwx2_2 : ∀ i : grid2.Coords, EltTy.bits .f32 = 32 ∨ (Rect.block (s := S100000x64) S2000x64.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S2000x64.size a ≤ S100000x64.size a
  hwx3_0 : ∀ i : grid3.Coords, EltTy.bits .f32 = 32 ∨ (Rect.block (s := S100000x64) S2000x64.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x64.size a ≤ S1x64.size a
  hwx3_1 : ∀ i : grid3.Coords, EltTy.bits .f32 = 32 ∨ (Rect.block (s := S1x64) S1x64.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S2000x64.size a ≤ S100000x64.size a
  hwx3_2 : ∀ i : grid3.Coords, EltTy.bits .f32 = 32 ∨ (Rect.block (s := S100000x64) S2000x64.size (cc3_transform_2 i) (hinb3_2 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S2000x64.size a ≤ S100000x64.size a
  hwx4_0 : ∀ i : grid4.Coords, EltTy.bits .f32 = 32 ∨ (Rect.block (s := S100000x64) S2000x64.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S64x128.size a ≤ S64x128.size a
  hwx4_1 : ∀ i : grid4.Coords, EltTy.bits .f32 = 32 ∨ (Rect.block (s := S64x128) S64x128.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S1x128.size a ≤ S1x128.size a
  hwx4_2 : ∀ i : grid4.Coords, EltTy.bits .f32 = 32 ∨ (Rect.block (s := S1x128) S1x128.size (cc4_transform_2 i) (hinb4_2 i)).WholeWords (EltTy.packing .f32)
  hstage4_3 : ∀ j, (stage4_3 j).IsWhole
  nbuf4_3 : grid4.bufCount reads4_3 false = 2
  hreads4_3 : ∀ i i' : grid4.Coords, (∀ a, reads4_3 a = true → i a = i' a) → cc4_transform_3 i = cc4_transform_3 i'
  hinb4_3 : ∀ (i : grid4.Coords) a, (cc4_transform_3 i a + 1) * S2000x128.size a ≤ S100000x128.size a
  hwx4_3 : ∀ i : grid4.Coords, EltTy.bits .f32 = 32 ∨ (Rect.block (s := S100000x128) S2000x128.size (cc4_transform_3 i) (hinb4_3 i)).WholeWords (EltTy.packing .f32)

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S2000x64_S64x64_S2000x64_1_0_0_1_n_n : DotDims S2000x64 S64x64 S2000x64 where
  lhsContracting := [1]
  rhsContracting := [0]
  lhsNonContracting := [0]
  rhsNonContracting := [1]
  lhsBatch := []
  rhsBatch := []
  wf := dot_S2000x64_S64x64_S2000x64_1_0_0_1_n_n_wf
def gather_S100000x64_S1700000x1_S1700000x64_1_0_n_n_0_1_164 : GatherDims S100000x64 S1700000x1 S1700000x64 where
  offsetDims := [1]
  collapsedSliceDims := [0]
  operandBatchingDims := []
  startIndicesBatchingDims := []
  startIndexMap := [0]
  indexVectorDim := 1
  sliceSizes := ![1, 64]
  wf := gather_S100000x64_S1700000x1_S1700000x64_1_0_n_n_0_1_164_wf
def scatter_S100000x64_S1700000x1_S1700000x64_1_0_0_1 : ScatterDims S100000x64 S1700000x1 S1700000x64 where
  updateWindowDims := [1]
  insertedWindowDims := [0]
  scatterDimsToOperandDims := [0]
  indexVectorDim := 1
  wf := scatter_S100000x64_S1700000x1_S1700000x64_1_0_0_1_wf
def dot_S2000x64_S64x128_S2000x128_1_0_0_1_n_n : DotDims S2000x64 S64x128 S2000x128 where
  lhsContracting := [1]
  rhsContracting := [0]
  lhsNonContracting := [0]
  rhsNonContracting := [1]
  lhsBatch := []
  rhsBatch := []
  wf := dot_S2000x64_S64x128_S2000x128_1_0_0_1_n_n_wf

abbrev win0_0 : Pipeline.Window sig grid0 :=
  Pipeline.Window.ofSpec (Memref.whole main_arg0) S2000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S64x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v35) S2000x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v48) S2000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v49) S1x64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v50) S2000x64.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v50) S2000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg4) S64x64.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v51) S2000x64.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v64) S2000x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v65) S1x64.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v66) S2000x64.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

abbrev win4_0 : Pipeline.Window sig grid4 :=
  Pipeline.Window.ofSpec (Memref.whole main_v66) S2000x64.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v67) S64x128.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v69) S1x128.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v70) S2000x128.size cc4_transform_3 reads4_3 true false 2 stage4_3 sem4_3
    hrank4 hreads4_3 hinb4_3 nbuf4_3 (Memref.isWhole_whole _) hwx4_3 hstage4_3

abbrev win4 : Fin 4 → Pipeline.Window sig grid4 := fun | 0 => win4_0 | 1 => win4_1 | 2 => win4_2 | 3 => win4_3 | ⟨_ + 4, h⟩ => absurd h (Nat.not_lt.2 (Nat.le_add_left _ _))
abbrev spec4 : Fin 4 → Pipeline.WinSpec sig grid4.rank := fun w => (win4 w).toWinSpec

class Facts : Prop extends Facts₀ where

variable [Facts]
-- ==== ReferenceIdeal.lean ====
abbrev S100000x64 : Shape := ⟨2, ![100000, 64]⟩
abbrev S2x1600000 : Shape := ⟨2, ![2, 1600000]⟩
abbrev S64x64 : Shape := ⟨2, ![64, 64]⟩
abbrev S64 : Shape := ⟨1, ![64]⟩
abbrev S64x1 : Shape := ⟨2, ![64, 1]⟩
abbrev S1 : Shape := ⟨1, ![1]⟩
abbrev S1x1600000 : Shape := ⟨2, ![1, 1600000]⟩
abbrev S1600000 : Shape := ⟨1, ![1600000]⟩
abbrev S100000 : Shape := ⟨1, ![100000]⟩
abbrev S1700000 : Shape := ⟨1, ![1700000]⟩
abbrev S_ : Shape := ⟨0, ![]⟩
abbrev S1700000x1 : Shape := ⟨2, ![1700000, 1]⟩
abbrev S1700000x64 : Shape := ⟨2, ![1700000, 64]⟩
abbrev S1x64 : Shape := ⟨2, ![1, 64]⟩
abbrev S100000x1 : Shape := ⟨2, ![100000, 1]⟩
abbrev S1x1 : Shape := ⟨2, ![1, 1]⟩

abbrev nBuf : Space → Nat
  | .hbm => 148
  | .vmem => 0
  | .smem => 0
  | _ => 0

abbrev hbmTy0_0 (i : Nat) : BufTy := match i % 128 with
  | 0 => ⟨S100000x64, .f32⟩
  | 1 => ⟨S2x1600000, .i32⟩
  | 2 => ⟨S64x64, .f32⟩
  | 3 => ⟨S64, .f32⟩
  | 4 => ⟨S64x64, .f32⟩
  | 5 => ⟨S64, .f32⟩
  | 6 => ⟨S64x1, .f32⟩
  | 7 => ⟨S1, .f32⟩
  | 8 => ⟨S1x1600000, .i32⟩
  | 9 => ⟨S1600000, .i32⟩
  | 10 => ⟨S1x1600000, .i32⟩
  | 11 => ⟨S1600000, .i32⟩
  | 12 => ⟨S100000x64, .f32⟩
  | 13 => ⟨S100000, .i32⟩
  | 14 => ⟨S1700000, .i32⟩
  | 15 => ⟨S1700000, .i32⟩
  | 16 => ⟨S_, .f32⟩
  | 17 => ⟨S100000, .f32⟩
  | 18 => ⟨S_, .i32⟩
  | 19 => ⟨S1700000, .i32⟩
  | 20 => ⟨S1700000, .i1⟩
  | 21 => ⟨S_, .i32⟩
  | 22 => ⟨S1700000, .i32⟩
  | 23 => ⟨S1700000, .i32⟩
  | 24 => ⟨S1700000, .i32⟩
  | 25 => ⟨S1700000x1, .i32⟩
  | 26 => ⟨S_, .f32⟩
  | 27 => ⟨S1700000, .f32⟩
  | 28 => ⟨S100000, .f32⟩
  | 29 => ⟨S_, .f32⟩
  | 30 => ⟨S100000, .f32⟩
  | 31 => ⟨S100000, .i1⟩
  | 32 => ⟨S100000, .f32⟩
  | 33 => ⟨S_, .f32⟩
  | 34 => ⟨S_, .f32⟩
  | 35 => ⟨S100000, .f32⟩
  | 36 => ⟨S100000, .f32⟩
  | 37 => ⟨S_, .i32⟩
  | 38 => ⟨S1700000, .i32⟩
  | 39 => ⟨S1700000, .i1⟩
  | 40 => ⟨S_, .i32⟩
  | 41 => ⟨S1700000, .i32⟩
  | 42 => ⟨S1700000, .i32⟩
  | 43 => ⟨S1700000, .i32⟩
  | 44 => ⟨S1700000x1, .i32⟩
  | 45 => ⟨S1700000, .f32⟩
  | 46 => ⟨S_, .i32⟩
  | 47 => ⟨S1700000, .i32⟩
  | 48 => ⟨S1700000, .i1⟩
  | 49 => ⟨S_, .i32⟩
  | 50 => ⟨S1700000, .i32⟩
  | 51 => ⟨S1700000, .i32⟩
  | 52 => ⟨S1700000, .i32⟩
  | 53 => ⟨S1700000x1, .i32⟩
  | 54 => ⟨S1700000, .f32⟩
  | 55 => ⟨S1700000, .f32⟩
  | 56 => ⟨S_, .i32⟩
  | 57 => ⟨S1700000, .i32⟩
  | 58 => ⟨S1700000, .i1⟩
  | 59 => ⟨S_, .i32⟩
  | 60 => ⟨S1700000, .i32⟩
  | 61 => ⟨S1700000, .i32⟩
  | 62 => ⟨S1700000, .i32⟩
  | 63 => ⟨S1700000x1, .i32⟩
  | 64 => ⟨S1700000x64, .f32⟩
  | 65 => ⟨S1700000x1, .f32⟩
  | 66 => ⟨S1700000x64, .f32⟩
  | 67 => ⟨S1700000x64, .f32⟩
  | 68 => ⟨S_, .f32⟩
  | 69 => ⟨S100000x64, .f32⟩
  | 70 => ⟨S1700000x1, .i32⟩
  | 71 => ⟨S100000x64, .f32⟩
  | 72 => ⟨S1x64, .f32⟩
  | 73 => ⟨S100000x64, .f32⟩
  | 74 => ⟨S100000x64, .f32⟩
  | 75 => ⟨S_, .f32⟩
  | 76 => ⟨S100000x64, .f32⟩
  | 77 => ⟨S100000x64, .f32⟩
  | 78 => ⟨S100000x64, .f32⟩
  | 79 => ⟨S100000, .i32⟩
  | 80 => ⟨S1700000, .i32⟩
  | 81 => ⟨S1700000, .i32⟩
  | 82 => ⟨S_, .f32⟩
  | 83 => ⟨S100000, .f32⟩
  | 84 => ⟨S_, .i32⟩
  | 85 => ⟨S1700000, .i32⟩
  | 86 => ⟨S1700000, .i1⟩
  | 87 => ⟨S_, .i32⟩
  | 88 => ⟨S1700000, .i32⟩
  | 89 => ⟨S1700000, .i32⟩
  | 90 => ⟨S1700000, .i32⟩
  | 91 => ⟨S1700000x1, .i32⟩
  | 92 => ⟨S_, .f32⟩
  | 93 => ⟨S1700000, .f32⟩
  | 94 => ⟨S100000, .f32⟩
  | 95 => ⟨S_, .f32⟩
  | 96 => ⟨S100000, .f32⟩
  | 97 => ⟨S100000, .i1⟩
  | 98 => ⟨S100000, .f32⟩
  | 99 => ⟨S_, .f32⟩
  | 100 => ⟨S_, .f32⟩
  | 101 => ⟨S100000, .f32⟩
  | 102 => ⟨S100000, .f32⟩
  | 103 => ⟨S_, .i32⟩
  | 104 => ⟨S1700000, .i32⟩
  | 105 => ⟨S1700000, .i1⟩
  | 106 => ⟨S_, .i32⟩
  | 107 => ⟨S1700000, .i32⟩
  | 108 => ⟨S1700000, .i32⟩
  | 109 => ⟨S1700000, .i32⟩
  | 110 => ⟨S1700000x1, .i32⟩
  | 111 => ⟨S1700000, .f32⟩
  | 112 => ⟨S_, .i32⟩
  | 113 => ⟨S1700000, .i32⟩
  | 114 => ⟨S1700000, .i1⟩
  | 115 => ⟨S_, .i32⟩
  | 116 => ⟨S1700000, .i32⟩
  | 117 => ⟨S1700000, .i32⟩
  | 118 => ⟨S1700000, .i32⟩
  | 119 => ⟨S1700000x1, .i32⟩
  | 120 => ⟨S1700000, .f32⟩
  | 121 => ⟨S1700000, .f32⟩
  | 122 => ⟨S_, .i32⟩
  | 123 => ⟨S1700000, .i32⟩
  | 124 => ⟨S1700000, .i1⟩
  | 125 => ⟨S_, .i32⟩
  | 126 => ⟨S1700000, .i32⟩
  | 127 => ⟨S1700000, .i32⟩
  | _ => ⟨S100000x64, .f32⟩

abbrev hbmTy0_1 (i : Nat) : BufTy := match i % 128 with
  | 0 => ⟨S1700000, .i32⟩
  | 1 => ⟨S1700000x1, .i32⟩
  | 2 => ⟨S1700000x64, .f32⟩
  | 3 => ⟨S1700000x1, .f32⟩
  | 4 => ⟨S1700000x64, .f32⟩
  | 5 => ⟨S1700000x64, .f32⟩
  | 6 => ⟨S_, .f32⟩
  | 7 => ⟨S100000x64, .f32⟩
  | 8 => ⟨S1700000x1, .i32⟩
  | 9 => ⟨S100000x64, .f32⟩
  | 10 => ⟨S1x64, .f32⟩
  | 11 => ⟨S100000x64, .f32⟩
  | 12 => ⟨S100000x64, .f32⟩
  | 13 => ⟨S_, .f32⟩
  | 14 => ⟨S100000x64, .f32⟩
  | 15 => ⟨S100000x64, .f32⟩
  | 16 => ⟨S100000x1, .f32⟩
  | 17 => ⟨S1x1, .f32⟩
  | 18 => ⟨S100000x1, .f32⟩
  | 19 => ⟨S100000x1, .f32⟩
  | _ => ⟨S100000x64, .f32⟩

abbrev hbmTy (i : Nat) : BufTy := match i / 128 with
  | 0 => hbmTy0_0 i
  | 1 => hbmTy0_1 i
  | _ => ⟨S100000x64, .f32⟩

abbrev bufTy : (tb : Table) → Fin (tcTables nBuf tb) → BufTy
  | .hbm, ⟨i, _⟩ => hbmTy i
  | _, _ => ⟨S100000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_cst : Ref sig .tc := ⟨.hbm, 16, rfl⟩
abbrev main_v8 : Ref sig .tc := ⟨.hbm, 17, rfl⟩
abbrev main_c : Ref sig .tc := ⟨.hbm, 18, rfl⟩
abbrev main_v9 : Ref sig .tc := ⟨.hbm, 19, rfl⟩
abbrev main_v10 : Ref sig .tc := ⟨.hbm, 20, rfl⟩
abbrev main_c_0 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_cst_1 : Ref sig .tc := ⟨.hbm, 26, rfl⟩
abbrev main_v15 : Ref sig .tc := ⟨.hbm, 27, rfl⟩
abbrev main_v16 : Ref sig .tc := ⟨.hbm, 28, rfl⟩
abbrev main_cst_2 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_cst_3 : Ref sig .tc := ⟨.hbm, 33, rfl⟩
abbrev main_call0_v0 : Ref sig .tc := ⟨.hbm, 34, rfl⟩
abbrev main_call0_v1 : Ref sig .tc := ⟨.hbm, 35, rfl⟩
abbrev main_v20 : Ref sig .tc := ⟨.hbm, 36, rfl⟩
abbrev main_c_4 : Ref sig .tc := ⟨.hbm, 37, rfl⟩
abbrev main_v21 : Ref sig .tc := ⟨.hbm, 38, rfl⟩
abbrev main_v22 : Ref sig .tc := ⟨.hbm, 39, rfl⟩
abbrev main_c_5 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_c_6 : Ref sig .tc := ⟨.hbm, 46, rfl⟩
abbrev main_v28 : Ref sig .tc := ⟨.hbm, 47, rfl⟩
abbrev main_v29 : Ref sig .tc := ⟨.hbm, 48, rfl⟩
abbrev main_c_7 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_c_8 : Ref sig .tc := ⟨.hbm, 56, rfl⟩
abbrev main_v36 : Ref sig .tc := ⟨.hbm, 57, rfl⟩
abbrev main_v37 : Ref sig .tc := ⟨.hbm, 58, rfl⟩
abbrev main_c_9 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_cst_10 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_call1_cst : Ref sig .tc := ⟨.hbm, 75, rfl⟩
abbrev main_call1_v0 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_cst_11 : Ref sig .tc := ⟨.hbm, 82, rfl⟩
abbrev main_v57 : Ref sig .tc := ⟨.hbm, 83, rfl⟩
abbrev main_c_12 : Ref sig .tc := ⟨.hbm, 84, rfl⟩
abbrev main_v58 : Ref sig .tc := ⟨.hbm, 85, rfl⟩
abbrev main_v59 : Ref sig .tc := ⟨.hbm, 86, rfl⟩
abbrev main_c_13 : Ref sig .tc := ⟨.hbm, 87, rfl⟩
abbrev main_v60 : Ref sig .tc := ⟨.hbm, 88, rfl⟩
abbrev main_v61 : Ref sig .tc := ⟨.hbm, 89, rfl⟩
abbrev main_v62 : Ref sig .tc := ⟨.hbm, 90, rfl⟩
abbrev main_v63 : Ref sig .tc := ⟨.hbm, 91, rfl⟩
abbrev main_cst_14 : Ref sig .tc := ⟨.hbm, 92, rfl⟩
abbrev main_v64 : Ref sig .tc := ⟨.hbm, 93, rfl⟩
abbrev main_v65 : Ref sig .tc := ⟨.hbm, 94, rfl⟩
abbrev main_cst_15 : Ref sig .tc := ⟨.hbm, 95, rfl⟩
abbrev main_v66 : Ref sig .tc := ⟨.hbm, 96, rfl⟩
abbrev main_v67 : Ref sig .tc := ⟨.hbm, 97, rfl⟩
abbrev main_v68 : Ref sig .tc := ⟨.hbm, 98, rfl⟩
abbrev main_cst_16 : Ref sig .tc := ⟨.hbm, 99, rfl⟩
abbrev main_call2_v0 : Ref sig .tc := ⟨.hbm, 100, rfl⟩
abbrev main_call2_v1 : Ref sig .tc := ⟨.hbm, 101, rfl⟩
abbrev main_v69 : Ref sig .tc := ⟨.hbm, 102, rfl⟩
abbrev main_c_17 : Ref sig .tc := ⟨.hbm, 103, rfl⟩
abbrev main_v70 : Ref sig .tc := ⟨.hbm, 104, rfl⟩
abbrev main_v71 : Ref sig .tc := ⟨.hbm, 105, rfl⟩
abbrev main_c_18 : Ref sig .tc := ⟨.hbm, 106, rfl⟩
abbrev main_v72 : Ref sig .tc := ⟨.hbm, 107, rfl⟩
abbrev main_v73 : Ref sig .tc := ⟨.hbm, 108, rfl⟩
abbrev main_v74 : Ref sig .tc := ⟨.hbm, 109, rfl⟩
abbrev main_v75 : Ref sig .tc := ⟨.hbm, 110, rfl⟩
abbrev main_v76 : Ref sig .tc := ⟨.hbm, 111, rfl⟩
abbrev main_c_19 : Ref sig .tc := ⟨.hbm, 112, rfl⟩
abbrev main_v77 : Ref sig .tc := ⟨.hbm, 113, rfl⟩
abbrev main_v78 : Ref sig .tc := ⟨.hbm, 114, rfl⟩
abbrev main_c_20 : Ref sig .tc := ⟨.hbm, 115, rfl⟩
abbrev main_v79 : Ref sig .tc := ⟨.hbm, 116, rfl⟩
abbrev main_v80 : Ref sig .tc := ⟨.hbm, 117, rfl⟩
abbrev main_v81 : Ref sig .tc := ⟨.hbm, 118, rfl⟩
abbrev main_v82 : Ref sig .tc := ⟨.hbm, 119, rfl⟩
abbrev main_v83 : Ref sig .tc := ⟨.hbm, 120, rfl⟩
abbrev main_v84 : Ref sig .tc := ⟨.hbm, 121, rfl⟩
abbrev main_c_21 : Ref sig .tc := ⟨.hbm, 122, rfl⟩
abbrev main_v85 : Ref sig .tc := ⟨.hbm, 123, rfl⟩
abbrev main_v86 : Ref sig .tc := ⟨.hbm, 124, rfl⟩
abbrev main_c_22 : Ref sig .tc := ⟨.hbm, 125, rfl⟩
abbrev main_v87 : Ref sig .tc := ⟨.hbm, 126, rfl⟩
abbrev main_v88 : Ref sig .tc := ⟨.hbm, 127, rfl⟩
abbrev main_v89 : Ref sig .tc := ⟨.hbm, 128, rfl⟩
abbrev main_v90 : Ref sig .tc := ⟨.hbm, 129, rfl⟩
abbrev main_v91 : Ref sig .tc := ⟨.hbm, 130, rfl⟩
abbrev main_v92 : Ref sig .tc := ⟨.hbm, 131, rfl⟩
abbrev main_v93 : Ref sig .tc := ⟨.hbm, 132, rfl⟩
abbrev main_v94 : Ref sig .tc := ⟨.hbm, 133, rfl⟩
abbrev main_cst_23 : Ref sig .tc := ⟨.hbm, 134, rfl⟩
abbrev main_v95 : Ref sig .tc := ⟨.hbm, 135, rfl⟩
abbrev main_v96 : Ref sig .tc := ⟨.hbm, 136, rfl⟩
abbrev main_v97 : Ref sig .tc := ⟨.hbm, 137, rfl⟩
abbrev main_v98 : Ref sig .tc := ⟨.hbm, 138, rfl⟩
abbrev main_v99 : Ref sig .tc := ⟨.hbm, 139, rfl⟩
abbrev main_v100 : Ref sig .tc := ⟨.hbm, 140, rfl⟩
abbrev main_call3_cst : Ref sig .tc := ⟨.hbm, 141, rfl⟩
abbrev main_call3_v0 : Ref sig .tc := ⟨.hbm, 142, rfl⟩
abbrev main_v101 : Ref sig .tc := ⟨.hbm, 143, rfl⟩
abbrev main_v102 : Ref sig .tc := ⟨.hbm, 144, rfl⟩
abbrev main_v103 : Ref sig .tc := ⟨.hbm, 145, rfl⟩
abbrev main_v104 : Ref sig .tc := ⟨.hbm, 146, rfl⟩
abbrev main_v105 : Ref sig .tc := ⟨.hbm, 147, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  concatenates_S1600000_S100000_S1700000_d0 : Shape.Concatenates [S1600000, S100000] S1700000 0
  bcast_S_S100000 : S_.BroadcastsInDim S100000 (![] : Fin 0 → Fin S100000.rank)
  bcast_S_S1700000 : S_.BroadcastsInDim S1700000 (![] : Fin 0 → Fin S1700000.rank)
  bcast_S1700000_S1700000x1_0 : S1700000.BroadcastsInDim S1700000x1 (![0] : Fin 1 → Fin S1700000x1.rank)
  bcast_S1700000x1_S1700000x64_0_1 : S1700000x1.BroadcastsInDim S1700000x64 (![0, 1] : Fin 2 → Fin S1700000x64.rank)
  bcast_S_S100000x64 : S_.BroadcastsInDim S100000x64 (![] : Fin 0 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  bcast_S1_S1x1_1 : S1.BroadcastsInDim S1x1 (![1] : Fin 1 → Fin S1x1.rank)
  bcast_S1x1_S100000x1_0_1 : S1x1.BroadcastsInDim S100000x1 (![0, 1] : Fin 2 → Fin S100000x1.rank)
  dot_S100000x64_S64x64_S100000x64_1_0_0_1_n_n_wf : DotDims.WF S100000x64 S64x64 S100000x64 [1] [0] [0] [1] [] []
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  gather_S100000x64_S1700000x1_S1700000x64_1_0_n_n_0_1_164_wf : GatherDims.WF S100000x64 S1700000x1 S1700000x64 [1] [0] [] [0] [] 1 ![1, 64]
  scatter_S100000x64_S1700000x1_S1700000x64_1_0_0_1_wf : ScatterDims.WF S100000x64 S1700000x1 S1700000x64 [1] [0] [0] 1
  dot_S100000x64_S64x1_S100000x1_1_0_0_1_n_n_wf : DotDims.WF S100000x64 S64x1 S100000x1 [1] [0] [0] [1] [] []

variable [Facts₀]

def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf
def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def gather_S100000x64_S1700000x1_S1700000x64_1_0_n_n_0_1_164 : GatherDims S100000x64 S1700000x1 S1700000x64 where
  offsetDims := [1]
  collapsedSliceDims := [0]
  operandBatchingDims := []
  startIndicesBatchingDims := []
  startIndexMap := [0]
  indexVectorDim := 1
  sliceSizes := ![1, 64]
  wf := gather_S100000x64_S1700000x1_S1700000x64_1_0_n_n_0_1_164_wf
def scatter_S100000x64_S1700000x1_S1700000x64_1_0_0_1 : ScatterDims S100000x64 S1700000x1 S1700000x64 where
  updateWindowDims := [1]
  insertedWindowDims := [0]
  scatterDimsToOperandDims := [0]
  indexVectorDim := 1
  wf := scatter_S100000x64_S1700000x1_S1700000x64_1_0_0_1_wf
def dot_S100000x64_S64x1_S100000x1_1_0_0_1_n_n : DotDims S100000x64 S64x1 S100000x1 where
  lhsContracting := [1]
  rhsContracting := [0]
  lhsNonContracting := [0]
  rhsNonContracting := [1]
  lhsBatch := []
  rhsBatch := []
  wf := dot_S100000x64_S64x1_S100000x1_1_0_0_1_n_n_wf

class Facts : Prop extends Facts₀ where

variable [Facts]
-- ==== Proof.LibPlainDot.lean ====
/-
  A plain matrix product read at an entry.

  For the dimension numbers of an `M×K` by `K×N` product (contract the left operand's axis 1 with the right
  operand's axis 0, no batch axes), a `tpu.matmul` into the zero accumulator, read on the extended reals at the
  entry `(p, q)`, is `∑ k, lhs (p, k) · rhs (k, q)`; so is the host's `dot_general`. Any record with these six lists
  is `DotDims.plain M K N` (the well-formedness field is a proposition), so a printed record is rewritten to it by `rfl`.
-/
import Idealize.ShloMosaic.PureOps.Ideal.Laws
import Idealize.ShloMosaic.Lib.ValueIdx

noncomputable section

namespace Cert.PlainDot

open Idealize.ShloMosaic Idealize.ShloMosaic.ValueIdx
open scoped BigOperators

variable {M K N : Nat}

/-- The left operand's index at result entry `j` and contraction position `k` is `(j 0, k)`. -/
theorem lhsIdx_eq (j : (⟨2, ![M, N]⟩ : Shape).Idx) (k : Fin K) :
    (DotDims.plain M K N).lhsIdx j ((contrEquiv1 (DotDims.plain M K N) K rfl rfl).symm k) = ix2 (j 0) k := by
  have hk := contrEquiv1_symm_val (DotDims.plain M K N) K rfl rfl k
  funext a
  apply Fin.ext
  match a with
  | ⟨0, _⟩ =>
    show ((DotDims.plain M K N).lhsIdx j _ 0).val = (j 0).val
    unfold DotDims.lhsIdx
    rw [dif_neg (show ¬(0 : Fin 2) ∈ (DotDims.plain M K N).lhsBatch from List.not_mem_nil),
      dif_pos (show (0 : Fin 2) ∈ (DotDims.plain M K N).lhsNonContracting from List.mem_singleton.mpr rfl)]
    rfl
  | ⟨1, _⟩ => exact ((DotDims.plain M K N).lhsIdx_val_of_single rfl j _).trans hk

/-- The right operand's index at result entry `j` and contraction position `k` is `(k, j 1)`. -/
theorem rhsIdx_eq (j : (⟨2, ![M, N]⟩ : Shape).Idx) (k : Fin K) :
    (DotDims.plain M K N).rhsIdx j ((contrEquiv1 (DotDims.plain M K N) K rfl rfl).symm k) = ix2 k (j 1) := by
  have hk := contrEquiv1_symm_val (DotDims.plain M K N) K rfl rfl k
  funext a
  apply Fin.ext
  match a with
  | ⟨0, _⟩ => exact ((DotDims.plain M K N).rhsIdx_val_of_single rfl j _).trans hk
  | ⟨1, _⟩ =>
    show ((DotDims.plain M K N).rhsIdx j _ 1).val = (j 1).val
    unfold DotDims.rhsIdx
    rw [dif_neg (show ¬(1 : Fin 2) ∈ (DotDims.plain M K N).rhsBatch from List.not_mem_nil),
      dif_pos (show (1 : Fin 2) ∈ (DotDims.plain M K N).rhsNonContracting from List.mem_singleton.mpr rfl)]
    rfl

/-- The contraction sum of a plain product at `(p, q)` is the sum over `k` of `lhs (p, k) · rhs (k, q)`. -/
theorem contraction_eq (lhs : (⟨2, ![M, K]⟩ : Shape).Idx → EReal) (rhs : (⟨2, ![K, N]⟩ : Shape).Idx → EReal) (p : Fin M) (q : Fin N) :
    (∑ k : (DotDims.plain M K N).contr.Idx, lhs ((DotDims.plain M K N).lhsIdx (ix2 p q) k) * rhs ((DotDims.plain M K N).rhsIdx (ix2 p q) k))
      = ∑ k : Fin K, lhs (ix2 p k) * rhs (ix2 k q) := by
  rw [← Equiv.sum_comp (contrEquiv1 (DotDims.plain M K N) K rfl rfl).symm]
  refine Finset.sum_congr rfl fun k _ => ?_
  rw [lhsIdx_eq, rhsIdx_eq]
  rfl

/-- A `tpu.matmul` of plain dimension numbers into the zero accumulator, at `(p, q)`. -/
theorem matmul_zero_apply (prec : Option ContractPrecision) (lhs : FVec Ideal ⟨2, ![M, K]⟩ .f32) (rhs : FVec Ideal ⟨2, ![K, N]⟩ .f32)
    (p : Fin M) (q : Fin N) :
    FloatOps.matmul (DotDims.plain M K N) prec lhs rhs (constant ⟨2, ![M, N]⟩ .f32 0x00000000#32) (ix2 p q)
      = ∑ k : Fin K, lhs (ix2 p k) * rhs (ix2 k q) := by
  rw [Ideal.matmul_constant_zero_apply]
  exact contraction_eq lhs rhs p q

/-- The host's `dot_general` of plain dimension numbers, at `(p, q)`. -/
theorem dotGeneral_apply (prec : Option ContractPrecision) (sched : HostSchedule) (lhs : FVec Ideal ⟨2, ![M, K]⟩ .f32)
    (rhs : FVec Ideal ⟨2, ![K, N]⟩ .f32) (p : Fin M) (q : Fin N) :
    FloatOps.dotGeneral (DotDims.plain M K N) prec sched lhs rhs (ix2 p q) = ∑ k : Fin K, lhs (ix2 p k) * rhs (ix2 k q) := by
  rw [Ideal.dotGeneral_apply]
  exact contraction_eq lhs rhs p q

end Cert.PlainDot

end
-- ==== Proof.FirstProduct.lean ====
/-
  The first layer's feature transform: the node features times the first weight matrix.

  The kernel tiles the 100000 rows into 50 blocks of 2000. At block `t` its body multiplies rows
  `2000·t … 2000·t + 1999` of the left array by the whole 64×64 right array into a zero accumulator, so entry
  `(r, q)` of what it writes back is `∑ k, x (2000·t + r, k) · w (k, q)` on the extended reals (a change of float format is
  the identity there). The 50 blocks tile the result array, so after the last block the array holds, at every
  `(p, q)`, the sum `∑ k, x (p, k) · w (k, q)`: the host's plain matrix product of the two arrays as the kernel found them.
-/
import proofs.«131221_j38603166056515_1_alg».proof.Proof.Gen.KernelIdeal.Frame
import proofs.«131221_j38603166056515_1_alg».proof.Proof.LibPlainDot
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.FirstProduct

open Idealize.ShloMosaic Idealize.ShloMosaic.TcCoe Idealize.ShloMosaic.ValueIdx Idealize.ShloMosaic.Pipeline Idealize.SL.Sem
open Cert.KernelIdeal Cert.KernelIdeal.Gen
open scoped BigOperators

variable (V : (c : Dev nD) → (b : Ref sig .tc) → Buf (Elt Ideal) ((c : Thread nD τ).loc b))

/-- The product of a 100000×64 array by a 64×64 array, as the host computes it. -/
abbrev product (x : S100000x64.Idx → EReal) (w : S64x64.Idx → EReal) : S100000x64.Idx → EReal :=
  FloatOps.dotGeneral (F := Ideal) (φ₁ := .f32) (φ₂ := .f32) (DotDims.plain 100000 64 64) none .single x w

theorem zero_offsets : (![0, 0] : Fin 2 → Nat) = fun _ => 0 := funext fun a => by fin_cases a <;> rfl

/-- One block's product at an entry: the sum over the 64 contraction positions. -/
theorem block_apply (x0 : Vec Ideal S2000x64 .f32) (x1 : Vec Ideal S64x64 .f32) (r : Fin 2000) (q : Fin 64) :
    k0_pay1 (F := Ideal) x0 x1 (ix2 r q) = ∑ k : Fin 64, x0 (ix2 r k) * x1 (ix2 k q) := by
  unfold k0_pay1
  exact Cert.PlainDot.matmul_zero_apply (M := 2000) (K := 64) (N := 64) none x0 x1 r q

/-- Where the blocks sit: block `t` of the left operand and of the result starts at row `2000·t`; the right operand's
    one block is the whole array. -/
theorem block_origin : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- What block `t` writes back is block `t` of the product of the two arrays as the kernel found them. -/
theorem written_back (c : Dev nD) (t : Fin cfg0.N) :
    (dat0 V c).flushed 2 t = ((cfg0.win 2).blk t).view.read (Elt Ideal) (product (V c main_arg0) (V c main_arg2)) := by
  show (cfg0.win 2).cut (grid0.coords t) ((dat0 V c).after 2 t) = _
  rw [after0_2]
  unfold out0_2
  rw [View.canon_unit_zero zero_offsets]
  simp only [View.ld_unit_zero (S := S2000x64) zero_offsets, View.ld_unit_zero (S := S64x64) zero_offsets]
  obtain ⟨e00, e01, e10, e11, e20, e21⟩ := block_origin t
  have hN : cfg0.N = 50 := N_0
  have ht : t.val < 50 := hN ▸ t.isLt
  funext j
  obtain ⟨r, q, rfl⟩ : ∃ (r : Fin 2000) (q : Fin 64), j = ix2 r q := ⟨j 0, j 1, eq_ix2 j⟩
  have hr : r.val < 2000 := r.isLt
  have hp : 2000 * t.val + r.val < 100000 := by omega
  refine (block_apply (iblk0 V c 0 t) (iblk0 V c 1 t) r q).trans ?_
  have hemb : ((cfg0.win 2).blk t).view.emb (ix2 r q) = ix2 (⟨2000 * t.val + r.val, hp⟩ : Fin 100000) q := by
    funext a; apply Fin.ext
    match a with
    | ⟨0, _⟩ => show win0_2.index t (0 : Fin 2) * 2000 + 1 * r.val = 2000 * t.val + r.val; omega
    | ⟨1, _⟩ => show win0_2.index t (1 : Fin 2) * 64 + 1 * q.val = q.val; omega
  show _ = product (V c main_arg0) (V c main_arg2) (((cfg0.win 2).blk t).view.emb (ix2 r q))
  rw [hemb]
  refine Eq.trans ?_ (Cert.PlainDot.dotGeneral_apply (M := 100000) (K := 64) (N := 64) none .single (V c main_arg0) (V c main_arg2) ⟨2000 * t.val + r.val, hp⟩ q).symm
  refine Finset.sum_congr rfl fun k _ => ?_
  have h0 : iblk0 V c 0 t (ix2 r k) = V c main_arg0 (ix2 (⟨2000 * t.val + r.val, hp⟩ : Fin 100000) k) := by
    show V c main_arg0 (((cfg0.win 0).blk t).view.emb (ix2 r k)) = _
    refine congrArg (V c main_arg0) ?_
    funext a; apply Fin.ext
    match a with
    | ⟨0, _⟩ => show win0_0.index t (0 : Fin 2) * 2000 + 1 * r.val = 2000 * t.val + r.val; omega
    | ⟨1, _⟩ => show win0_0.index t (1 : Fin 2) * 64 + 1 * k.val = k.val; omega
  have h1 : iblk0 V c 1 t (ix2 k q) = V c main_arg2 (ix2 k q) := by
    show V c main_arg2 (((cfg0.win 1).blk t).view.emb (ix2 k q)) = _
    refine congrArg (V c main_arg2) ?_
    funext a; apply Fin.ext
    match a with
    | ⟨0, _⟩ => show win0_1.index t (0 : Fin 2) * 64 + 1 * k.val = k.val; omega
    | ⟨1, _⟩ => show win0_1.index t (1 : Fin 2) * 64 + 1 * q.val = q.val; omega
  rw [h0, h1]

/-- An entry of the result array lies in block `t` iff each coordinate lies in the block's range on its axis. -/
theorem mem_block (t : Fin cfg0.N) (i : S100000x64.Idx) :
    i ∈ ((cfg0.win 2).blk t).view.set ↔ ∀ a : Fin 2, win0_2.index t a * S2000x64.size a ≤ (i a).val ∧ (i a).val < win0_2.index t a * S2000x64.size a + S2000x64.size a := by
  show i ∈ ((View.whole main_v35).slice (win0_2.rect t)).set ↔ _
  rw [View.set_slice_whole, Rect.mem_set_unit]
  exact Iff.rfl

/-- Every entry is in a block that is written back: row `p` is in block `p / 2000`. -/
theorem tiled (i : S100000x64.Idx) : ∃ t : Fin cfg0.N, (cfg0.win 2).flush t = true ∧ i ∈ ((cfg0.win 2).blk t).view.set := by
  have hN : cfg0.N = 50 := N_0
  have hi0 : (i 0).val < 100000 := idx2_lt0 i
  have hi1 : (i 1).val < 64 := (i 1).isLt
  refine ⟨⟨(i 0).val / 2000, by rw [hN]; omega⟩, flush0_2 _, ?_⟩
  obtain ⟨-, -, -, -, e20, e21⟩ := block_origin ⟨(i 0).val / 2000, by rw [hN]; omega⟩
  rw [mem_block]
  intro a
  match a with
  | ⟨0, _⟩ => show win0_2.index _ (0 : Fin 2) * 2000 ≤ (i 0).val ∧ (i 0).val < win0_2.index _ (0 : Fin 2) * 2000 + 2000; rw [e20]; show (i 0).val / 2000 * 2000 ≤ (i 0).val ∧ (i 0).val < (i 0).val / 2000 * 2000 + 2000; omega
  | ⟨1, _⟩ => show win0_2.index _ (1 : Fin 2) * 64 ≤ (i 1).val ∧ (i 1).val < win0_2.index _ (1 : Fin 2) * 64 + 64; rw [e21]; omega

/-- After the last block the result array is the product of the two arrays as the kernel found them. -/
theorem whole (c : Dev nD) : (dat0 V c).arrAt 2 cfg0.N = product (V c main_arg0) (V c main_arg2) :=
  (dat0 V c).arrAt_eq_of_cover 2 (product (V c main_arg0) (V c main_arg2)) (fun t _ => written_back V c t) tiled

end Cert.KernelIdeal.FirstProduct

end
-- ==== Proof.Network.lean ====
/-
  The two-layer graph convolution as one function of the argument arrays.

  The graph has 100000 nodes and 1600000 directed edges, given as a 2×1600000 array of endpoints (row 0 the sources, row 1
  the targets). Every node also gets a self-loop, so the lists of sources and of targets have 1700000 entries: the
  edges' endpoints followed by 0 … 99999. A node's degree is the number of list entries whose target it is (a target read
  with wrap-around: a negative entry counts from the end); `dinv` is the degree's inverse square root where the degree is
  positive and zero elsewhere; an entry's weight is `dinv(source) · dinv(target)`. One layer multiplies the node features
  by a weight matrix, then for every node adds up the weighted feature rows of the list entries whose target it is, adds a
  bias and takes the positive part. Two layers are followed by a product with a 64×1 matrix plus a bias.

  The definitions below spell this with the host operations and dimension records of the reference program, in the
  reference's own arrangement, for any interpretation of the floats.
-/
import proofs.«131221_j38603166056515_1_alg».proof.ReferenceIdeal
import proofs.«131221_j38603166056515_1_alg».proof.Proof.Gen.ReferenceIdeal

noncomputable section

namespace Cert.Gcn

open Idealize.ShloMosaic Cert.ReferenceIdeal Cert.ReferenceIdeal.Facts₀

variable {F : FTy → Type} [FloatOps F]

/-- Row `0` (sources) or row `1` (targets) of the edge array, as a vector of 1600000 entries. -/
abbrev sourcesRow (e : (⟨S2x1600000, .i32⟩ : BufTy).Contents (Elt F)) : (⟨S1600000, .i32⟩ : BufTy).Contents (Elt F) :=
  shapeCast _ (extractStridedSlice S1x1600000 ![0, 0] e slices_S2x1600000_S1x1600000_0_0) shapeCasts_S1x1600000_S1600000
abbrev targetsRow (e : (⟨S2x1600000, .i32⟩ : BufTy).Contents (Elt F)) : (⟨S1600000, .i32⟩ : BufTy).Contents (Elt F) :=
  shapeCast _ (extractStridedSlice S1x1600000 ![1, 0] e slices_S2x1600000_S1x1600000_1_0) shapeCasts_S1x1600000_S1600000

/-- A list of 1600000 endpoints followed by the self-loops' endpoints 0 … 99999. -/
abbrev withLoops (v : (⟨S1600000, .i32⟩ : BufTy).Contents (Elt F)) : (⟨S1700000, .i32⟩ : BufTy).Contents (Elt F) :=
  concatenate S1700000 0 [⟨S1600000, v⟩, ⟨S100000, (iotaInDim S100000 32 0)⟩] concatenates_S1600000_S100000_S1700000_d0

abbrev sources (e : (⟨S2x1600000, .i32⟩ : BufTy).Contents (Elt F)) : (⟨S1700000, .i32⟩ : BufTy).Contents (Elt F) := withLoops (F := F) (sourcesRow e)
abbrev targets (e : (⟨S2x1600000, .i32⟩ : BufTy).Contents (Elt F)) : (⟨S1700000, .i32⟩ : BufTy).Contents (Elt F) := withLoops (F := F) (targetsRow e)

/-- An endpoint read with wrap-around: a negative entry has 100000 added. -/
abbrev wrapped (v : (⟨S1700000, .i32⟩ : BufTy).Contents (Elt F)) : (⟨S1700000, .i32⟩ : BufTy).Contents (Elt F) :=
  select (cmpi .slt v (broadcastInDim S1700000 ![] bcast_S_S1700000 (constantI S_ 32 0#32))) (addi v (broadcastInDim S1700000 ![] bcast_S_S1700000 (constantI S_ 32 100000#32))) v

/-- A vector of 1700000 entries as a column. -/
abbrev column {T : EltTy} (v : (⟨S1700000, T⟩ : BufTy).Contents (Elt F)) : (⟨S1700000x1, T⟩ : BufTy).Contents (Elt F) :=
  broadcastInDim S1700000x1 ![0] bcast_S1700000_S1700000x1_0 v

/-- Every node's degree: one unit added per list entry at its wrapped target. -/
abbrev degree (e : (⟨S2x1600000, .i32⟩ : BufTy).Contents (Elt F)) : (⟨S100000, .f32⟩ : BufTy).Contents (Elt F) :=
  Host.scatterAdd scatter_S100000_S1700000x1_S1700000_n_0_0_1 (broadcastInDim S100000 ![] bcast_S_S100000 (constant S_ .f32 0x00000000#32))
    (column (wrapped (targets e))) (broadcastInDim S1700000 ![] bcast_S_S1700000 (constant S_ .f32 0x3F800000#32))

/-- The degree's inverse square root where the degree is positive, zero elsewhere. -/
abbrev dinv (e : (⟨S2x1600000, .i32⟩ : BufTy).Contents (Elt F)) : (⟨S100000, .f32⟩ : BufTy).Contents (Elt F) :=
  select (cmpf .ogt (degree e) (broadcastInDim S100000 ![] bcast_S_S100000 (constant S_ .f32 0x00000000#32))) (Host.rsqrt (degree e))
    (broadcastInDim S100000 ![] bcast_S_S100000 (id (constant S_ .f32 0x00000000#32)))

/-- A list entry's weight: `dinv` at its source times `dinv` at its target. -/
abbrev weight (e : (⟨S2x1600000, .i32⟩ : BufTy).Contents (Elt F)) : (⟨S1700000, .f32⟩ : BufTy).Contents (Elt F) :=
  mulf (Host.gather gather_S100000_S1700000x1_S1700000_n_0_n_n_0_1_1 (dinv e) (column (wrapped (sources e))))
    (Host.gather gather_S100000_S1700000x1_S1700000_n_0_n_n_0_1_1 (dinv e) (column (wrapped (targets e))))

/-- For every node, the sum of the weighted rows of `x` at the sources of the list entries whose target it is. -/
def aggregate (e : (⟨S2x1600000, .i32⟩ : BufTy).Contents (Elt F)) (x : (⟨S100000x64, .f32⟩ : BufTy).Contents (Elt F)) :
    (⟨S100000x64, .f32⟩ : BufTy).Contents (Elt F) :=
  Host.scatterAdd scatter_S100000x64_S1700000x1_S1700000x64_1_0_0_1 (broadcastInDim S100000x64 ![] bcast_S_S100000x64 (constant S_ .f32 0x00000000#32))
    (column (targets e))
    (mulf (Host.gather gather_S100000x64_S1700000x1_S1700000x64_1_0_n_n_0_1_164 x (column (wrapped (sources e))))
      (broadcastInDim S1700000x64 ![0, 1] bcast_S1700000x1_S1700000x64_0_1 (column (weight e))))

/-- A bias added to every row, then the positive part. -/
def biasRelu (a : (⟨S100000x64, .f32⟩ : BufTy).Contents (Elt F)) (b : (⟨S64, .f32⟩ : BufTy).Contents (Elt F)) :
    (⟨S100000x64, .f32⟩ : BufTy).Contents (Elt F) :=
  maximumf (addf a (broadcastInDim S100000x64 ![0, 1] bcast_S1x64_S100000x64_0_1 (broadcastInDim S1x64 ![1] bcast_S64_S1x64_1 b)))
    (broadcastInDim S100000x64 ![] bcast_S_S100000x64 (constant S_ .f32 0x00000000#32))

/-- The product of the node features by a 64×64 weight matrix. -/
def transform (x : (⟨S100000x64, .f32⟩ : BufTy).Contents (Elt F)) (w : (⟨S64x64, .f32⟩ : BufTy).Contents (Elt F)) :
    (⟨S100000x64, .f32⟩ : BufTy).Contents (Elt F) :=
  Host.dotGeneral dot_S100000x64_S64x64_S100000x64_1_0_0_1_n_n none x w

/-- One graph-convolution layer. -/
def layer (e : (⟨S2x1600000, .i32⟩ : BufTy).Contents (Elt F)) (x : (⟨S100000x64, .f32⟩ : BufTy).Contents (Elt F))
    (w : (⟨S64x64, .f32⟩ : BufTy).Contents (Elt F)) (b : (⟨S64, .f32⟩ : BufTy).Contents (Elt F)) : (⟨S100000x64, .f32⟩ : BufTy).Contents (Elt F) :=
  biasRelu (aggregate e (transform x w)) b

/-- The readout: a product with a 64×1 matrix plus a bias. -/
def readout (x : (⟨S100000x64, .f32⟩ : BufTy).Contents (Elt F)) (wo : (⟨S64x1, .f32⟩ : BufTy).Contents (Elt F))
    (bo : (⟨S1, .f32⟩ : BufTy).Contents (Elt F)) : (⟨S100000x1, .f32⟩ : BufTy).Contents (Elt F) :=
  addf (Host.dotGeneral dot_S100000x64_S64x1_S100000x1_1_0_0_1_n_n none x wo)
    (broadcastInDim S100000x1 ![0, 1] bcast_S1x1_S100000x1_0_1 (broadcastInDim S1x1 ![1] bcast_S1_S1x1_1 bo))

/-- The whole network. -/
def network (h : (⟨S100000x64, .f32⟩ : BufTy).Contents (Elt F)) (e : (⟨S2x1600000, .i32⟩ : BufTy).Contents (Elt F))
    (w1 : (⟨S64x64, .f32⟩ : BufTy).Contents (Elt F)) (b1 : (⟨S64, .f32⟩ : BufTy).Contents (Elt F))
    (w2 : (⟨S64x64, .f32⟩ : BufTy).Contents (Elt F)) (b2 : (⟨S64, .f32⟩ : BufTy).Contents (Elt F))
    (wo : (⟨S64x1, .f32⟩ : BufTy).Contents (Elt F)) (bo : (⟨S1, .f32⟩ : BufTy).Contents (Elt F)) : (⟨S100000x1, .f32⟩ : BufTy).Contents (Elt F) :=
  readout (layer e (layer e h w1 b1) w2 b2) wo bo

end Cert.Gcn

end
-- ==== Proof.FirstBias.lean ====
/-
  The first layer's bias and positive part.

  The kernel tiles the 100000 rows into 50 blocks of 2000. At block `t` its body adds the 1×64 bias row to every row
  of the block and takes the maximum with zero, so entry `(r, q)` of what it writes back is
  `max (a (2000·t + r, q) + b q) 0`. The 50 blocks tile the result array, and the reference's bias-then-positive-part, read
  at `(p, q)`, is the same `max (a (p, q) + b q) 0`: the bias vector as a 1×64 row (the kernel's reshape) and as a
  broadcast along a new leading axis (the reference's) hold the same entries.
-/
import proofs.«131221_j38603166056515_1_alg».proof.Proof.Gen.KernelIdeal.Frame
import proofs.«131221_j38603166056515_1_alg».proof.Proof.LibPlainDot
import Idealize.ShloMosaic.Lib.Pipeline.Value
import Idealize.ShloMosaic.Lib.ValueIdx
import Idealize.ShloMosaic.Lib.ValueLayout
import Idealize.ShloMosaic.PureOps.Ideal.Laws
import proofs.«131221_j38603166056515_1_alg».proof.Proof.Network
set_option maxRecDepth 16384

noncomputable section

namespace Cert.KernelIdeal.FirstBias

open Idealize.ShloMosaic Idealize.ShloMosaic.TcCoe Idealize.ShloMosaic.ValueIdx Idealize.ShloMosaic.Pipeline Idealize.SL.Sem
open Cert.KernelIdeal Cert.KernelIdeal.Gen
open scoped BigOperators

variable (V : (c : Dev nD) → (b : Ref sig .tc) → Buf (Elt Ideal) ((c : Thread nD τ).loc b))

theorem zero_offsets : (![0, 0] : Fin 2 → Nat) = fun _ => 0 := funext fun a => by fin_cases a <;> rfl

/-- One block's result at an entry. -/
theorem block_apply (x0 : Vec Ideal S2000x64 .f32) (x1 : Vec Ideal S1x64 .f32) (r : Fin 2000) (q : Fin 64) :
    k1_pay1 (F := Ideal) x0 x1 (ix2 r q) = max (x0 (ix2 r q) + x1 (ix2 (0 : Fin 1) q)) (Ideal.ofBits .f32 0x00000000#32) := by
  unfold k1_pay1
  show max ((shapeCast S2000x64 x0 shapeCasts_S2000x64_S2000x64) (ix2 r q)
      + (broadcastTo S2000x64 (shapeCast S1x64 x1 shapeCasts_S1x64_S1x64) broadcasts_S1x64_S2000x64) (ix2 r q)) _ = _
  rw [shapeCast_self, shapeCast_self]
  rw [broadcastTo_apply x1 broadcasts_S1x64_S2000x64 (ix2 r q) (ix2 (0 : Fin 1) q) (fun a => by
    match a with
    | ⟨0, _⟩ => rfl
    | ⟨1, _⟩ => rfl)]
  rfl

/-- The reference's bias-then-positive-part at an entry. -/
theorem biasRelu_apply (a : S100000x64.Idx → EReal) (b : S64.Idx → EReal) (p : Fin 100000) (q : Fin 64) :
    Cert.Gcn.biasRelu (F := Ideal) a b (ix2 p q) = max (a (ix2 p q) + b (ix1 q)) (Ideal.ofBits .f32 0x00000000#32) := by
  unfold Cert.Gcn.biasRelu
  show max (a (ix2 p q) + (broadcastInDim Cert.ReferenceIdeal.S100000x64 ![0, 1] Cert.ReferenceIdeal.Gen.bcast_S1x64_S100000x64_0_1
      (broadcastInDim Cert.ReferenceIdeal.S1x64 ![1] Cert.ReferenceIdeal.Gen.bcast_S64_S1x64_1 b)) (ix2 p q))
    ((broadcastInDim Cert.ReferenceIdeal.S100000x64 ![] Cert.ReferenceIdeal.Gen.bcast_S_S100000x64 (constant (F := Ideal) Cert.ReferenceIdeal.S_ .f32 0x00000000#32)) (ix2 p q)) = _
  rw [broadcastInDim_apply ![0, 1] Cert.ReferenceIdeal.Gen.bcast_S1x64_S100000x64_0_1 _ (ix2 p q) (ix2 (0 : Fin 1) q) (fun a => by
    match a with
    | ⟨0, _⟩ => rfl
    | ⟨1, _⟩ => rfl)]
  rw [broadcastInDim_apply ![1] Cert.ReferenceIdeal.Gen.bcast_S64_S1x64_1 b (ix2 (0 : Fin 1) q) (ix1 q) (fun a => by
    match a with
    | ⟨0, _⟩ => rfl)]
  rfl

/-- The bias vector reshaped to a 1×64 row holds `b q` at `(0, q)`. -/
theorem row_apply (b : S64.Idx → EReal) (q : Fin 64) :
    (shapeCast S1x64 b shapeCasts_S64_S1x64) (ix2 (0 : Fin 1) q) = b (ix1 q) :=
  shapeCast_apply b shapeCasts_S64_S1x64 (ix2 (0 : Fin 1) q) (ix1 q) (by
    rw [Shape.rowMajor_val_one, Shape.rowMajor_val_two]
    show q.val = 0 * 64 + q.val
    omega)

/-- Where the blocks sit: block `t` of the input and of the result starts at row `2000·t`; the bias row's one block is
    the whole row. -/
theorem block_origin : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

/-- What block `t` writes back is block `t` of the reference's bias-then-positive-part of the array the kernel found,
    when the kernel's bias row is the bias vector reshaped. -/
theorem written_back (c : Dev nD) (b : S64.Idx → EReal) (hb : V c main_v49 = shapeCast S1x64 b shapeCasts_S64_S1x64) (t : Fin cfg1.N) :
    (dat1 V c).flushed 2 t = ((cfg1.win 2).blk t).view.read (Elt Ideal) (Cert.Gcn.biasRelu (F := Ideal) (V c main_v48) b) := by
  show (cfg1.win 2).cut (grid1.coords t) ((dat1 V c).after 2 t) = _
  rw [after1_2]
  unfold out1_2
  rw [View.canon_unit_zero zero_offsets]
  simp only [View.ld_unit_zero (S := S2000x64) zero_offsets, View.ld_unit_zero (S := S1x64) zero_offsets]
  obtain ⟨e00, e01, e10, e11, e20, e21⟩ := block_origin t
  have hN : cfg1.N = 50 := N_1
  have ht : t.val < 50 := hN ▸ t.isLt
  funext j
  obtain ⟨r, q, rfl⟩ : ∃ (r : Fin 2000) (q : Fin 64), j = ix2 r q := ⟨j 0, j 1, eq_ix2 j⟩
  have hr : r.val < 2000 := r.isLt
  have hp : 2000 * t.val + r.val < 100000 := by omega
  refine (block_apply (iblk1 V c 0 t) (iblk1 V c 1 t) r q).trans ?_
  have hemb : ((cfg1.win 2).blk t).view.emb (ix2 r q) = ix2 (⟨2000 * t.val + r.val, hp⟩ : Fin 100000) q := by
    funext a; apply Fin.ext
    match a with
    | ⟨0, _⟩ => show win1_2.index t (0 : Fin 2) * 2000 + 1 * r.val = 2000 * t.val + r.val; omega
    | ⟨1, _⟩ => show win1_2.index t (1 : Fin 2) * 64 + 1 * q.val = q.val; omega
  show _ = Cert.Gcn.biasRelu (F := Ideal) (V c main_v48) b (((cfg1.win 2).blk t).view.emb (ix2 r q))
  rw [hemb]
  refine Eq.trans ?_ (biasRelu_apply (V c main_v48) b ⟨2000 * t.val + r.val, hp⟩ q).symm
  have h0 : iblk1 V c 0 t (ix2 r q) = V c main_v48 (ix2 (⟨2000 * t.val + r.val, hp⟩ : Fin 100000) q) := by
    show V c main_v48 (((cfg1.win 0).blk t).view.emb (ix2 r q)) = _
    refine congrArg (V c main_v48) ?_
    funext a; apply Fin.ext
    match a with
    | ⟨0, _⟩ => show win1_0.index t (0 : Fin 2) * 2000 + 1 * r.val = 2000 * t.val + r.val; omega
    | ⟨1, _⟩ => show win1_0.index t (1 : Fin 2) * 64 + 1 * q.val = q.val; omega
  have h1 : iblk1 V c 1 t (ix2 (0 : Fin 1) q) = b (ix1 q) := by
    show V c main_v49 (((cfg1.win 1).blk t).view.emb (ix2 (0 : Fin 1) q)) = _
    rw [hb]
    refine Eq.trans (congrArg (shapeCast S1x64 b shapeCasts_S64_S1x64) ?_) (row_apply b q)
    funext a; apply Fin.ext
    match a with
    | ⟨0, _⟩ => show win1_1.index t (0 : Fin 2) * 1 + 1 * 0 = 0; omega
    | ⟨1, _⟩ => show win1_1.index t (1 : Fin 2) * 64 + 1 * q.val = q.val; omega
  rw [h0, h1]

/-- An entry of the result array lies in block `t` iff each coordinate lies in the block's range on its axis. -/
theorem mem_block (t : Fin cfg1.N) (i : S100000x64.Idx) :
    i ∈ ((cfg1.win 2).blk t).view.set ↔ ∀ a : Fin 2, win1_2.index t a * S2000x64.size a ≤ (i a).val ∧ (i a).val < win1_2.index t a * S2000x64.size a + S2000x64.size a := by
  show i ∈ ((View.whole main_v50).slice (win1_2.rect t)).set ↔ _
  rw [View.set_slice_whole, Rect.mem_set_unit]
  exact Iff.rfl

/-- Every entry is in a block that is written back: row `p` is in block `p / 2000`. -/
theorem tiled (i : S100000x64.Idx) : ∃ t : Fin cfg1.N, (cfg1.win 2).flush t = true ∧ i ∈ ((cfg1.win 2).blk t).view.set := by
  have hN : cfg1.N = 50 := N_1
  have hi0 : (i 0).val < 100000 := idx2_lt0 i
  have hi1 : (i 1).val < 64 := (i 1).isLt
  refine ⟨⟨(i 0).val / 2000, by rw [hN]; omega⟩, flush1_2 _, ?_⟩
  obtain ⟨-, -, -, -, e20, e21⟩ := block_origin ⟨(i 0).val / 2000, by rw [hN]; omega⟩
  rw [mem_block]
  intro a
  match a with
  | ⟨0, _⟩ => show win1_2.index _ (0 : Fin 2) * 2000 ≤ (i 0).val ∧ (i 0).val < win1_2.index _ (0 : Fin 2) * 2000 + 2000; rw [e20]; show (i 0).val / 2000 * 2000 ≤ (i 0).val ∧ (i 0).val < (i 0).val / 2000 * 2000 + 2000; omega
  | ⟨1, _⟩ => show win1_2.index _ (1 : Fin 2) * 64 ≤ (i 1).val ∧ (i 1).val < win1_2.index _ (1 : Fin 2) * 64 + 64; rw [e21]; omega

/-- After the last block the result array is the reference's bias-then-positive-part of the array the kernel found. -/
theorem whole (c : Dev nD) (b : S64.Idx → EReal) (hb : V c main_v49 = shapeCast S1x64 b shapeCasts_S64_S1x64) :
    (dat1 V c).arrAt 2 cfg1.N = Cert.Gcn.biasRelu (F := Ideal) (V c main_v48) b :=
  (dat1 V c).arrAt_eq_of_cover 2 (Cert.Gcn.biasRelu (F := Ideal) (V c main_v48) b) (fun t _ => written_back V c b hb t) tiled

end Cert.KernelIdeal.FirstBias

end
-- ==== Proof.SecondProduct.lean ====
/-
  The second layer's feature transform: the first layer's output times the second weight matrix.

  The kernel tiles the 100000 rows into 50 blocks of 2000. At block `t` its body multiplies rows
  `2000·t … 2000·t + 1999` of the left array by the whole 64×64 right array into a zero accumulator, so entry
  `(r, q)` of what it writes back is `∑ k, x (2000·t + r, k) · w (k, q)` on the extended reals (a change of float format is
  the identity there). The 50 blocks tile the result array, so after the last block the array holds, at every
  `(p, q)`, the sum `∑ k, x (p, k) · w (k, q)`: the host's plain matrix product of the two arrays as the kernel found them.
-/
import proofs.«131221_j38603166056515_1_alg».proof.Proof.Gen.KernelIdeal.Frame
import proofs.«131221_j38603166056515_1_alg».proof.Proof.LibPlainDot
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.SecondProduct

open Idealize.ShloMosaic Idealize.ShloMosaic.TcCoe Idealize.ShloMosaic.ValueIdx Idealize.ShloMosaic.Pipeline Idealize.SL.Sem
open Cert.KernelIdeal Cert.KernelIdeal.Gen
open scoped BigOperators

variable (V : (c : Dev nD) → (b : Ref sig .tc) → Buf (Elt Ideal) ((c : Thread nD τ).loc b))

/-- The product of a 100000×64 array by a 64×64 array, as the host computes it. -/
abbrev product (x : S100000x64.Idx → EReal) (w : S64x64.Idx → EReal) : S100000x64.Idx → EReal :=
  FloatOps.dotGeneral (F := Ideal) (φ₁ := .f32) (φ₂ := .f32) (DotDims.plain 100000 64 64) none .single x w

theorem zero_offsets : (![0, 0] : Fin 2 → Nat) = fun _ => 0 := funext fun a => by fin_cases a <;> rfl

/-- One block's product at an entry: the sum over the 64 contraction positions. -/
theorem block_apply (x0 : Vec Ideal S2000x64 .f32) (x1 : Vec Ideal S64x64 .f32) (r : Fin 2000) (q : Fin 64) :
    k2_pay1 (F := Ideal) x0 x1 (ix2 r q) = ∑ k : Fin 64, x0 (ix2 r k) * x1 (ix2 k q) := by
  unfold k2_pay1
  show FloatOps.matmul (F := Ideal) (φ₁ := .f32) (φ₂ := .f32) (DotDims.plain 2000 64 64) none (shapeCast S2000x64 x0 shapeCasts_S2000x64_S2000x64) x1
    (constant S2000x64 .f32 0x00000000#32) (ix2 r q) = _
  rw [shapeCast_self]
  exact Cert.PlainDot.matmul_zero_apply (M := 2000) (K := 64) (N := 64) none x0 x1 r q

/-- Where the blocks sit: block `t` of the left operand and of the result starts at row `2000·t`; the right operand's
    one block is the whole array. -/
theorem block_origin : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

/-- What block `t` writes back is block `t` of the product of the two arrays as the kernel found them. -/
theorem written_back (c : Dev nD) (t : Fin cfg2.N) :
    (dat2 V c).flushed 2 t = ((cfg2.win 2).blk t).view.read (Elt Ideal) (product (V c main_v50) (V c main_arg4)) := by
  show (cfg2.win 2).cut (grid2.coords t) ((dat2 V c).after 2 t) = _
  rw [after2_2]
  unfold out2_2
  rw [View.canon_unit_zero zero_offsets]
  simp only [View.ld_unit_zero (S := S2000x64) zero_offsets, View.ld_unit_zero (S := S64x64) zero_offsets]
  obtain ⟨e00, e01, e10, e11, e20, e21⟩ := block_origin t
  have hN : cfg2.N = 50 := N_2
  have ht : t.val < 50 := hN ▸ t.isLt
  funext j
  obtain ⟨r, q, rfl⟩ : ∃ (r : Fin 2000) (q : Fin 64), j = ix2 r q := ⟨j 0, j 1, eq_ix2 j⟩
  have hr : r.val < 2000 := r.isLt
  have hp : 2000 * t.val + r.val < 100000 := by omega
  refine (block_apply (iblk2 V c 0 t) (iblk2 V c 1 t) r q).trans ?_
  have hemb : ((cfg2.win 2).blk t).view.emb (ix2 r q) = ix2 (⟨2000 * t.val + r.val, hp⟩ : Fin 100000) q := by
    funext a; apply Fin.ext
    match a with
    | ⟨0, _⟩ => show win2_2.index t (0 : Fin 2) * 2000 + 1 * r.val = 2000 * t.val + r.val; omega
    | ⟨1, _⟩ => show win2_2.index t (1 : Fin 2) * 64 + 1 * q.val = q.val; omega
  show _ = product (V c main_v50) (V c main_arg4) (((cfg2.win 2).blk t).view.emb (ix2 r q))
  rw [hemb]
  refine Eq.trans ?_ (Cert.PlainDot.dotGeneral_apply (M := 100000) (K := 64) (N := 64) none .single (V c main_v50) (V c main_arg4) ⟨2000 * t.val + r.val, hp⟩ q).symm
  refine Finset.sum_congr rfl fun k _ => ?_
  have h0 : iblk2 V c 0 t (ix2 r k) = V c main_v50 (ix2 (⟨2000 * t.val + r.val, hp⟩ : Fin 100000) k) := by
    show V c main_v50 (((cfg2.win 0).blk t).view.emb (ix2 r k)) = _
    refine congrArg (V c main_v50) ?_
    funext a; apply Fin.ext
    match a with
    | ⟨0, _⟩ => show win2_0.index t (0 : Fin 2) * 2000 + 1 * r.val = 2000 * t.val + r.val; omega
    | ⟨1, _⟩ => show win2_0.index t (1 : Fin 2) * 64 + 1 * k.val = k.val; omega
  have h1 : iblk2 V c 1 t (ix2 k q) = V c main_arg4 (ix2 k q) := by
    show V c main_arg4 (((cfg2.win 1).blk t).view.emb (ix2 k q)) = _
    refine congrArg (V c main_arg4) ?_
    funext a; apply Fin.ext
    match a with
    | ⟨0, _⟩ => show win2_1.index t (0 : Fin 2) * 64 + 1 * k.val = k.val; omega
    | ⟨1, _⟩ => show win2_1.index t (1 : Fin 2) * 64 + 1 * q.val = q.val; omega
  rw [h0, h1]

/-- An entry of the result array lies in block `t` iff each coordinate lies in the block's range on its axis. -/
theorem mem_block (t : Fin cfg2.N) (i : S100000x64.Idx) :
    i ∈ ((cfg2.win 2).blk t).view.set ↔ ∀ a : Fin 2, win2_2.index t a * S2000x64.size a ≤ (i a).val ∧ (i a).val < win2_2.index t a * S2000x64.size a + S2000x64.size a := by
  show i ∈ ((View.whole main_v51).slice (win2_2.rect t)).set ↔ _
  rw [View.set_slice_whole, Rect.mem_set_unit]
  exact Iff.rfl

/-- Every entry is in a block that is written back: row `p` is in block `p / 2000`. -/
theorem tiled (i : S100000x64.Idx) : ∃ t : Fin cfg2.N, (cfg2.win 2).flush t = true ∧ i ∈ ((cfg2.win 2).blk t).view.set := by
  have hN : cfg2.N = 50 := N_2
  have hi0 : (i 0).val < 100000 := idx2_lt0 i
  have hi1 : (i 1).val < 64 := (i 1).isLt
  refine ⟨⟨(i 0).val / 2000, by rw [hN]; omega⟩, flush2_2 _, ?_⟩
  obtain ⟨-, -, -, -, e20, e21⟩ := block_origin ⟨(i 0).val / 2000, by rw [hN]; omega⟩
  rw [mem_block]
  intro a
  match a with
  | ⟨0, _⟩ => show win2_2.index _ (0 : Fin 2) * 2000 ≤ (i 0).val ∧ (i 0).val < win2_2.index _ (0 : Fin 2) * 2000 + 2000; rw [e20]; show (i 0).val / 2000 * 2000 ≤ (i 0).val ∧ (i 0).val < (i 0).val / 2000 * 2000 + 2000; omega
  | ⟨1, _⟩ => show win2_2.index _ (1 : Fin 2) * 64 ≤ (i 1).val ∧ (i 1).val < win2_2.index _ (1 : Fin 2) * 64 + 64; rw [e21]; omega

/-- After the last block the result array is the product of the two arrays as the kernel found them. -/
theorem whole (c : Dev nD) : (dat2 V c).arrAt 2 cfg2.N = product (V c main_v50) (V c main_arg4) :=
  (dat2 V c).arrAt_eq_of_cover 2 (product (V c main_v50) (V c main_arg4)) (fun t _ => written_back V c t) tiled

end Cert.KernelIdeal.SecondProduct

end
-- ==== Proof.SecondBias.lean ====
/-
  The second layer's bias and positive part.

  The kernel tiles the 100000 rows into 50 blocks of 2000. At block `t` its body adds the 1×64 bias row to every row
  of the block and takes the maximum with zero, so entry `(r, q)` of what it writes back is
  `max (a (2000·t + r, q) + b q) 0`. The 50 blocks tile the result array, and the reference's bias-then-positive-part, read
  at `(p, q)`, is the same `max (a (p, q) + b q) 0`: the bias vector as a 1×64 row (the kernel's reshape) and as a
  broadcast along a new leading axis (the reference's) hold the same entries.
-/
import proofs.«131221_j38603166056515_1_alg».proof.Proof.Gen.KernelIdeal.Frame
import proofs.«131221_j38603166056515_1_alg».proof.Proof.LibPlainDot
import Idealize.ShloMosaic.Lib.Pipeline.Value
import Idealize.ShloMosaic.Lib.ValueIdx
import Idealize.ShloMosaic.Lib.ValueLayout
import Idealize.ShloMosaic.PureOps.Ideal.Laws
import proofs.«131221_j38603166056515_1_alg».proof.Proof.Network
set_option maxRecDepth 16384

noncomputable section

namespace Cert.KernelIdeal.SecondBias

open Idealize.ShloMosaic Idealize.ShloMosaic.TcCoe Idealize.ShloMosaic.ValueIdx Idealize.ShloMosaic.Pipeline Idealize.SL.Sem
open Cert.KernelIdeal Cert.KernelIdeal.Gen
open scoped BigOperators

variable (V : (c : Dev nD) → (b : Ref sig .tc) → Buf (Elt Ideal) ((c : Thread nD τ).loc b))

theorem zero_offsets : (![0, 0] : Fin 2 → Nat) = fun _ => 0 := funext fun a => by fin_cases a <;> rfl

/-- One block's result at an entry. -/
theorem block_apply (x0 : Vec Ideal S2000x64 .f32) (x1 : Vec Ideal S1x64 .f32) (r : Fin 2000) (q : Fin 64) :
    k3_pay1 (F := Ideal) x0 x1 (ix2 r q) = max (x0 (ix2 r q) + x1 (ix2 (0 : Fin 1) q)) (Ideal.ofBits .f32 0x00000000#32) := by
  unfold k3_pay1
  show max ((shapeCast S2000x64 x0 shapeCasts_S2000x64_S2000x64) (ix2 r q)
      + (broadcastTo S2000x64 (shapeCast S1x64 x1 shapeCasts_S1x64_S1x64) broadcasts_S1x64_S2000x64) (ix2 r q)) _ = _
  rw [shapeCast_self, shapeCast_self]
  rw [broadcastTo_apply x1 broadcasts_S1x64_S2000x64 (ix2 r q) (ix2 (0 : Fin 1) q) (fun a => by
    match a with
    | ⟨0, _⟩ => rfl
    | ⟨1, _⟩ => rfl)]
  rfl

/-- The reference's bias-then-positive-part at an entry. -/
theorem biasRelu_apply (a : S100000x64.Idx → EReal) (b : S64.Idx → EReal) (p : Fin 100000) (q : Fin 64) :
    Cert.Gcn.biasRelu (F := Ideal) a b (ix2 p q) = max (a (ix2 p q) + b (ix1 q)) (Ideal.ofBits .f32 0x00000000#32) := by
  unfold Cert.Gcn.biasRelu
  show max (a (ix2 p q) + (broadcastInDim Cert.ReferenceIdeal.S100000x64 ![0, 1] Cert.ReferenceIdeal.Gen.bcast_S1x64_S100000x64_0_1
      (broadcastInDim Cert.ReferenceIdeal.S1x64 ![1] Cert.ReferenceIdeal.Gen.bcast_S64_S1x64_1 b)) (ix2 p q))
    ((broadcastInDim Cert.ReferenceIdeal.S100000x64 ![] Cert.ReferenceIdeal.Gen.bcast_S_S100000x64 (constant (F := Ideal) Cert.ReferenceIdeal.S_ .f32 0x00000000#32)) (ix2 p q)) = _
  rw [broadcastInDim_apply ![0, 1] Cert.ReferenceIdeal.Gen.bcast_S1x64_S100000x64_0_1 _ (ix2 p q) (ix2 (0 : Fin 1) q) (fun a => by
    match a with
    | ⟨0, _⟩ => rfl
    | ⟨1, _⟩ => rfl)]
  rw [broadcastInDim_apply ![1] Cert.ReferenceIdeal.Gen.bcast_S64_S1x64_1 b (ix2 (0 : Fin 1) q) (ix1 q) (fun a => by
    match a with
    | ⟨0, _⟩ => rfl)]
  rfl

/-- The bias vector reshaped to a 1×64 row holds `b q` at `(0, q)`. -/
theorem row_apply (b : S64.Idx → EReal) (q : Fin 64) :
    (shapeCast S1x64 b shapeCasts_S64_S1x64) (ix2 (0 : Fin 1) q) = b (ix1 q) :=
  shapeCast_apply b shapeCasts_S64_S1x64 (ix2 (0 : Fin 1) q) (ix1 q) (by
    rw [Shape.rowMajor_val_one, Shape.rowMajor_val_two]
    show q.val = 0 * 64 + q.val
    omega)

/-- Where the blocks sit: block `t` of the input and of the result starts at row `2000·t`; the bias row's one block is
    the whole row. -/
theorem block_origin : ∀ t : Fin cfg3.N, win3_0.index t (0 : Fin 2) = t.val ∧ win3_0.index t (1 : Fin 2) = 0
    ∧ win3_1.index t (0 : Fin 2) = 0 ∧ win3_1.index t (1 : Fin 2) = 0
    ∧ win3_2.index t (0 : Fin 2) = t.val ∧ win3_2.index t (1 : Fin 2) = 0 :=
  (by decide +kernel : ∀ t : Fin grid3.N, _)

/-- What block `t` writes back is block `t` of the reference's bias-then-positive-part of the array the kernel found,
    when the kernel's bias row is the bias vector reshaped. -/
theorem written_back (c : Dev nD) (b : S64.Idx → EReal) (hb : V c main_v65 = shapeCast S1x64 b shapeCasts_S64_S1x64) (t : Fin cfg3.N) :
    (dat3 V c).flushed 2 t = ((cfg3.win 2).blk t).view.read (Elt Ideal) (Cert.Gcn.biasRelu (F := Ideal) (V c main_v64) b) := by
  show (cfg3.win 2).cut (grid3.coords t) ((dat3 V c).after 2 t) = _
  rw [after3_2]
  unfold out3_2
  rw [View.canon_unit_zero zero_offsets]
  simp only [View.ld_unit_zero (S := S2000x64) zero_offsets, View.ld_unit_zero (S := S1x64) zero_offsets]
  obtain ⟨e00, e01, e10, e11, e20, e21⟩ := block_origin t
  have hN : cfg3.N = 50 := N_3
  have ht : t.val < 50 := hN ▸ t.isLt
  funext j
  obtain ⟨r, q, rfl⟩ : ∃ (r : Fin 2000) (q : Fin 64), j = ix2 r q := ⟨j 0, j 1, eq_ix2 j⟩
  have hr : r.val < 2000 := r.isLt
  have hp : 2000 * t.val + r.val < 100000 := by omega
  refine (block_apply (iblk3 V c 0 t) (iblk3 V c 1 t) r q).trans ?_
  have hemb : ((cfg3.win 2).blk t).view.emb (ix2 r q) = ix2 (⟨2000 * t.val + r.val, hp⟩ : Fin 100000) q := by
    funext a; apply Fin.ext
    match a with
    | ⟨0, _⟩ => show win3_2.index t (0 : Fin 2) * 2000 + 1 * r.val = 2000 * t.val + r.val; omega
    | ⟨1, _⟩ => show win3_2.index t (1 : Fin 2) * 64 + 1 * q.val = q.val; omega
  show _ = Cert.Gcn.biasRelu (F := Ideal) (V c main_v64) b (((cfg3.win 2).blk t).view.emb (ix2 r q))
  rw [hemb]
  refine Eq.trans ?_ (biasRelu_apply (V c main_v64) b ⟨2000 * t.val + r.val, hp⟩ q).symm
  have h0 : iblk3 V c 0 t (ix2 r q) = V c main_v64 (ix2 (⟨2000 * t.val + r.val, hp⟩ : Fin 100000) q) := by
    show V c main_v64 (((cfg3.win 0).blk t).view.emb (ix2 r q)) = _
    refine congrArg (V c main_v64) ?_
    funext a; apply Fin.ext
    match a with
    | ⟨0, _⟩ => show win3_0.index t (0 : Fin 2) * 2000 + 1 * r.val = 2000 * t.val + r.val; omega
    | ⟨1, _⟩ => show win3_0.index t (1 : Fin 2) * 64 + 1 * q.val = q.val; omega
  have h1 : iblk3 V c 1 t (ix2 (0 : Fin 1) q) = b (ix1 q) := by
    show V c main_v65 (((cfg3.win 1).blk t).view.emb (ix2 (0 : Fin 1) q)) = _
    rw [hb]
    refine Eq.trans (congrArg (shapeCast S1x64 b shapeCasts_S64_S1x64) ?_) (row_apply b q)
    funext a; apply Fin.ext
    match a with
    | ⟨0, _⟩ => show win3_1.index t (0 : Fin 2) * 1 + 1 * 0 = 0; omega
    | ⟨1, _⟩ => show win3_1.index t (1 : Fin 2) * 64 + 1 * q.val = q.val; omega
  rw [h0, h1]

/-- An entry of the result array lies in block `t` iff each coordinate lies in the block's range on its axis. -/
theorem mem_block (t : Fin cfg3.N) (i : S100000x64.Idx) :
    i ∈ ((cfg3.win 2).blk t).view.set ↔ ∀ a : Fin 2, win3_2.index t a * S2000x64.size a ≤ (i a).val ∧ (i a).val < win3_2.index t a * S2000x64.size a + S2000x64.size a := by
  show i ∈ ((View.whole main_v66).slice (win3_2.rect t)).set ↔ _
  rw [View.set_slice_whole, Rect.mem_set_unit]
  exact Iff.rfl

/-- Every entry is in a block that is written back: row `p` is in block `p / 2000`. -/
theorem tiled (i : S100000x64.Idx) : ∃ t : Fin cfg3.N, (cfg3.win 2).flush t = true ∧ i ∈ ((cfg3.win 2).blk t).view.set := by
  have hN : cfg3.N = 50 := N_3
  have hi0 : (i 0).val < 100000 := idx2_lt0 i
  have hi1 : (i 1).val < 64 := (i 1).isLt
  refine ⟨⟨(i 0).val / 2000, by rw [hN]; omega⟩, flush3_2 _, ?_⟩
  obtain ⟨-, -, -, -, e20, e21⟩ := block_origin ⟨(i 0).val / 2000, by rw [hN]; omega⟩
  rw [mem_block]
  intro a
  match a with
  | ⟨0, _⟩ => show win3_2.index _ (0 : Fin 2) * 2000 ≤ (i 0).val ∧ (i 0).val < win3_2.index _ (0 : Fin 2) * 2000 + 2000; rw [e20]; show (i 0).val / 2000 * 2000 ≤ (i 0).val ∧ (i 0).val < (i 0).val / 2000 * 2000 + 2000; omega
  | ⟨1, _⟩ => show win3_2.index _ (1 : Fin 2) * 64 ≤ (i 1).val ∧ (i 1).val < win3_2.index _ (1 : Fin 2) * 64 + 64; rw [e21]; omega

/-- After the last block the result array is the reference's bias-then-positive-part of the array the kernel found. -/
theorem whole (c : Dev nD) (b : S64.Idx → EReal) (hb : V c main_v65 = shapeCast S1x64 b shapeCasts_S64_S1x64) :
    (dat3 V c).arrAt 2 cfg3.N = Cert.Gcn.biasRelu (F := Ideal) (V c main_v64) b :=
  (dat3 V c).arrAt_eq_of_cover 2 (Cert.Gcn.biasRelu (F := Ideal) (V c main_v64) b) (fun t _ => written_back V c b hb t) tiled

end Cert.KernelIdeal.SecondBias

end
-- ==== Proof.Readout.lean ====
/-
  The readout: the second layer's output times the 64×1 output matrix, plus the output bias.

  The kernel widens the 64×1 matrix to 64×128 and the one-entry bias to 128 entries by padding with zeros on the right,
  multiplies block by block as in the layers (50 blocks of 2000 rows) and adds the 1×128 bias row to every row, so entry
  `(p, j)` of its 100000×128 result is `∑ k, x (p, k) · wpad (k, j) + bpad j`. Only column 0 is kept. There the padded
  matrix and the padded bias hold the original entries, so entry `(p, 0)` is `∑ k, x (p, k) · wo (k, 0) + bo 0`: the
  reference's readout. The padding value never enters column 0.
-/
import proofs.«131221_j38603166056515_1_alg».proof.Proof.Gen.KernelIdeal.Frame
import proofs.«131221_j38603166056515_1_alg».proof.Proof.LibPlainDot
import Idealize.ShloMosaic.Lib.Pipeline.Value
import Idealize.ShloMosaic.Lib.ValueIdx
import Idealize.ShloMosaic.Lib.ValueLayout
import Idealize.ShloMosaic.PureOps.Ideal.Laws
import proofs.«131221_j38603166056515_1_alg».proof.Proof.Network
import Idealize.ShloMosaic.Lib.KernelVsHost
set_option maxRecDepth 16384

noncomputable section

namespace Cert.KernelIdeal.Readout

open Idealize.ShloMosaic Idealize.ShloMosaic.TcCoe Idealize.ShloMosaic.ValueIdx Idealize.ShloMosaic.Pipeline Idealize.SL.Sem
open Cert.KernelIdeal Cert.KernelIdeal.Gen
open scoped BigOperators

variable (V : (c : Dev nD) → (b : Ref sig .tc) → Buf (Elt Ideal) ((c : Thread nD τ).loc b))

/-- The 100000×128 array the kernel computes: the product with the widened matrix plus the widened bias row. -/
def widened (x : S100000x64.Idx → EReal) (w : S64x128.Idx → EReal) (b : S1x128.Idx → EReal) : S100000x128.Idx → EReal :=
  fun i => FloatOps.dotGeneral (F := Ideal) (φ₁ := .f32) (φ₂ := .f32) (DotDims.plain 100000 64 128) none .single x w i
    + b (ix2 (0 : Fin 1) (⟨(i 1).val, (i 1).isLt⟩ : Fin 128))

theorem widened_apply (x : S100000x64.Idx → EReal) (w : S64x128.Idx → EReal) (b : S1x128.Idx → EReal) (p : Fin 100000) (q : Fin 128) :
    widened x w b (ix2 p q) = (∑ k : Fin 64, x (ix2 p k) * w (ix2 k q)) + b (ix2 (0 : Fin 1) q) := by
  show FloatOps.dotGeneral (F := Ideal) (φ₁ := .f32) (φ₂ := .f32) (DotDims.plain 100000 64 128) none .single x w (ix2 p q) + b (ix2 (0 : Fin 1) q) = _
  rw [Cert.PlainDot.dotGeneral_apply (M := 100000) (K := 64) (N := 128) none .single x w p q]

theorem zero_offsets : (![0, 0] : Fin 2 → Nat) = fun _ => 0 := funext fun a => by fin_cases a <;> rfl

/-- One block's result at an entry. -/
theorem block_apply (x0 : Vec Ideal S2000x64 .f32) (x1 : Vec Ideal S64x128 .f32) (x2 : Vec Ideal S1x128 .f32) (r : Fin 2000) (q : Fin 128) :
    k4_pay1 (F := Ideal) x0 x1 x2 (ix2 r q) = (∑ k : Fin 64, x0 (ix2 r k) * x1 (ix2 k q)) + x2 (ix2 (0 : Fin 1) q) := by
  unfold k4_pay1
  show FloatOps.matmul (F := Ideal) (φ₁ := .f32) (φ₂ := .f32) (DotDims.plain 2000 64 128) none (shapeCast S2000x64 x0 shapeCasts_S2000x64_S2000x64)
      (shapeCast S64x128 x1 shapeCasts_S64x128_S64x128) (constant S2000x128 .f32 0x00000000#32) (ix2 r q)
    + (broadcastTo S2000x128 (shapeCast S1x128 x2 shapeCasts_S1x128_S1x128) broadcasts_S1x128_S2000x128) (ix2 r q) = _
  rw [shapeCast_self, shapeCast_self, shapeCast_self]
  rw [Cert.PlainDot.matmul_zero_apply (M := 2000) (K := 64) (N := 128) none x0 x1 r q]
  rw [broadcastTo_apply x2 broadcasts_S1x128_S2000x128 (ix2 r q) (ix2 (0 : Fin 1) q) (fun a => by
    match a with
    | ⟨0, _⟩ => rfl
    | ⟨1, _⟩ => rfl)]

/-- Where the blocks sit: block `t` of the left operand and of the result starts at row `2000·t`; the widened matrix and
    the bias row each have one block, the whole array. -/
theorem block_origin : ∀ t : Fin cfg4.N, win4_0.index t (0 : Fin 2) = t.val ∧ win4_0.index t (1 : Fin 2) = 0
    ∧ win4_1.index t (0 : Fin 2) = 0 ∧ win4_1.index t (1 : Fin 2) = 0
    ∧ win4_2.index t (0 : Fin 2) = 0 ∧ win4_2.index t (1 : Fin 2) = 0
    ∧ win4_3.index t (0 : Fin 2) = t.val ∧ win4_3.index t (1 : Fin 2) = 0 :=
  (by decide +kernel : ∀ t : Fin grid4.N, _)

/-- What block `t` writes back is block `t` of the widened array of the three arrays as the kernel found them. -/
theorem written_back (c : Dev nD) (t : Fin cfg4.N) :
    (dat4 V c).flushed 3 t = ((cfg4.win 3).blk t).view.read (Elt Ideal) (widened (V c main_v66) (V c main_v67) (V c main_v69)) := by
  show (cfg4.win 3).cut (grid4.coords t) ((dat4 V c).after 3 t) = _
  rw [after4_3]
  unfold out4_3
  rw [View.canon_unit_zero zero_offsets]
  simp only [View.ld_unit_zero (S := S2000x64) zero_offsets, View.ld_unit_zero (S := S64x128) zero_offsets, View.ld_unit_zero (S := S1x128) zero_offsets]
  obtain ⟨e00, e01, e10, e11, e20, e21, e30, e31⟩ := block_origin t
  have hN : cfg4.N = 50 := N_4
  have ht : t.val < 50 := hN ▸ t.isLt
  funext j
  obtain ⟨r, q, rfl⟩ : ∃ (r : Fin 2000) (q : Fin 128), j = ix2 r q := ⟨j 0, j 1, eq_ix2 j⟩
  have hr : r.val < 2000 := r.isLt
  have hp : 2000 * t.val + r.val < 100000 := by omega
  refine (block_apply (iblk4 V c 0 t) (iblk4 V c 1 t) (iblk4 V c 2 t) r q).trans ?_
  have hemb : ((cfg4.win 3).blk t).view.emb (ix2 r q) = ix2 (⟨2000 * t.val + r.val, hp⟩ : Fin 100000) q := by
    funext a; apply Fin.ext
    match a with
    | ⟨0, _⟩ => show win4_3.index t (0 : Fin 2) * 2000 + 1 * r.val = 2000 * t.val + r.val; omega
    | ⟨1, _⟩ => show win4_3.index t (1 : Fin 2) * 128 + 1 * q.val = q.val; omega
  show _ = widened (V c main_v66) (V c main_v67) (V c main_v69) (((cfg4.win 3).blk t).view.emb (ix2 r q))
  rw [hemb]
  refine Eq.trans ?_ (widened_apply (V c main_v66) (V c main_v67) (V c main_v69) ⟨2000 * t.val + r.val, hp⟩ q).symm
  have h2 : iblk4 V c 2 t (ix2 (0 : Fin 1) q) = V c main_v69 (ix2 (0 : Fin 1) q) := by
    show V c main_v69 (((cfg4.win 2).blk t).view.emb (ix2 (0 : Fin 1) q)) = _
    refine congrArg (V c main_v69) ?_
    funext a; apply Fin.ext
    match a with
    | ⟨0, _⟩ => show win4_2.index t (0 : Fin 2) * 1 + 1 * 0 = 0; omega
    | ⟨1, _⟩ => show win4_2.index t (1 : Fin 2) * 128 + 1 * q.val = q.val; omega
  rw [h2]
  refine congrArg (· + V c main_v69 (ix2 (0 : Fin 1) q)) ?_
  refine Finset.sum_congr rfl fun k _ => ?_
  have h0 : iblk4 V c 0 t (ix2 r k) = V c main_v66 (ix2 (⟨2000 * t.val + r.val, hp⟩ : Fin 100000) k) := by
    show V c main_v66 (((cfg4.win 0).blk t).view.emb (ix2 r k)) = _
    refine congrArg (V c main_v66) ?_
    funext a; apply Fin.ext
    match a with
    | ⟨0, _⟩ => show win4_0.index t (0 : Fin 2) * 2000 + 1 * r.val = 2000 * t.val + r.val; omega
    | ⟨1, _⟩ => show win4_0.index t (1 : Fin 2) * 64 + 1 * k.val = k.val; omega
  have h1 : iblk4 V c 1 t (ix2 k q) = V c main_v67 (ix2 k q) := by
    show V c main_v67 (((cfg4.win 1).blk t).view.emb (ix2 k q)) = _
    refine congrArg (V c main_v67) ?_
    funext a; apply Fin.ext
    match a with
    | ⟨0, _⟩ => show win4_1.index t (0 : Fin 2) * 64 + 1 * k.val = k.val; omega
    | ⟨1, _⟩ => show win4_1.index t (1 : Fin 2) * 128 + 1 * q.val = q.val; omega
  rw [h0, h1]

/-- An entry of the result array lies in block `t` iff each coordinate lies in the block's range on its axis. -/
theorem mem_block (t : Fin cfg4.N) (i : S100000x128.Idx) :
    i ∈ ((cfg4.win 3).blk t).view.set ↔ ∀ a : Fin 2, win4_3.index t a * S2000x128.size a ≤ (i a).val ∧ (i a).val < win4_3.index t a * S2000x128.size a + S2000x128.size a := by
  show i ∈ ((View.whole main_v70).slice (win4_3.rect t)).set ↔ _
  rw [View.set_slice_whole, Rect.mem_set_unit]
  exact Iff.rfl

/-- Every entry is in a block that is written back: row `p` is in block `p / 2000`. -/
theorem tiled (i : S100000x128.Idx) : ∃ t : Fin cfg4.N, (cfg4.win 3).flush t = true ∧ i ∈ ((cfg4.win 3).blk t).view.set := by
  have hN : cfg4.N = 50 := N_4
  have hi0 : (i 0).val < 100000 := idx2_lt0 i
  have hi1 : (i 1).val < 128 := (i 1).isLt
  refine ⟨⟨(i 0).val / 2000, by rw [hN]; omega⟩, flush4_3 _, ?_⟩
  obtain ⟨-, -, -, -, -, -, e30, e31⟩ := block_origin ⟨(i 0).val / 2000, by rw [hN]; omega⟩
  rw [mem_block]
  intro a
  match a with
  | ⟨0, _⟩ => show win4_3.index _ (0 : Fin 2) * 2000 ≤ (i 0).val ∧ (i 0).val < win4_3.index _ (0 : Fin 2) * 2000 + 2000; rw [e30]; show (i 0).val / 2000 * 2000 ≤ (i 0).val ∧ (i 0).val < (i 0).val / 2000 * 2000 + 2000; omega
  | ⟨1, _⟩ => show win4_3.index _ (1 : Fin 2) * 128 ≤ (i 1).val ∧ (i 1).val < win4_3.index _ (1 : Fin 2) * 128 + 128; rw [e31]; omega

/-- After the last block the result array is the widened array of the three arrays as the kernel found them. -/
theorem whole (c : Dev nD) : (dat4 V c).arrAt 3 cfg4.N = widened (V c main_v66) (V c main_v67) (V c main_v69) :=
  (dat4 V c).arrAt_eq_of_cover 3 (widened (V c main_v66) (V c main_v67) (V c main_v69)) (fun t _ => written_back V c t) tiled

/-- Column 0 of the widened array, with the matrix and the bias widened by padding, is the reference's readout. -/
theorem column_zero (x : S100000x64.Idx → EReal) (wo : S64x1.Idx → EReal) (bo : S1.Idx → EReal) (z : S_.Idx → EReal) :
    extractStridedSlice S100000x1 ![0, 0]
        (widened x (pad S64x128 ![0, 0] ![0, 127] ![0, 0] wo z pads_S64x1_S64x128_000_01270 h_S_)
          (shapeCast S1x128 (pad S128 ![0] ![127] ![0] bo z pads_S1_S128_01270 h_S_) shapeCasts_S128_S1x128))
        slices_S100000x128_S100000x1_0_0
      = Cert.Gcn.readout (F := Ideal) x wo bo := by
  funext j
  obtain ⟨p, q, rfl⟩ : ∃ (p : Fin 100000) (q : Fin 1), j = ix2 p q := ⟨j 0, j 1, eq_ix2 j⟩
  obtain rfl : q = 0 := Subsingleton.elim _ _
  rw [extractStridedSlice_apply ![0, 0] _ slices_S100000x128_S100000x1_0_0 (ix2 p (0 : Fin 1)) (ix2 p (0 : Fin 128)) (fun a => by
    match a with
    | ⟨0, _⟩ => show p.val = 0 + p.val; omega
    | ⟨1, _⟩ => rfl)]
  rw [widened_apply]
  have hw : ∀ k : Fin 64, pad S64x128 ![0, 0] ![0, 127] ![0, 0] wo z pads_S64x1_S64x128_000_01270 h_S_ (ix2 k (0 : Fin 128)) = wo (ix2 k (0 : Fin 1)) := fun k =>
    pad_apply_of_inside ![0, 0] ![0, 127] ![0, 0] wo z pads_S64x1_S64x128_000_01270 h_S_ (ix2 k (0 : Fin 128)) (ix2 k (0 : Fin 1)) (fun a => by
      match a with
      | ⟨0, _⟩ => show k.val = 0 + k.val * (0 + 1); omega
      | ⟨1, _⟩ => rfl)
  have hb : shapeCast S1x128 (pad S128 ![0] ![127] ![0] bo z pads_S1_S128_01270 h_S_) shapeCasts_S128_S1x128 (ix2 (0 : Fin 1) (0 : Fin 128)) = bo (ix1 (0 : Fin 1)) := by
    rw [shapeCast_apply _ shapeCasts_S128_S1x128 (ix2 (0 : Fin 1) (0 : Fin 128)) (ix1 (0 : Fin 128)) (by
      rw [Shape.rowMajor_val_one, Shape.rowMajor_val_two]
      show (0 : Nat) = 0 * 128 + 0
      rfl)]
    exact pad_apply_of_inside ![0] ![127] ![0] bo z pads_S1_S128_01270 h_S_ (ix1 (0 : Fin 128)) (ix1 (0 : Fin 1)) (fun a => by
      match a with
      | ⟨0, _⟩ => rfl)
  rw [hb]
  simp only [hw]
  unfold Cert.Gcn.readout
  show _ = FloatOps.dotGeneral (F := Ideal) (φ₁ := .f32) (φ₂ := .f32) (DotDims.plain 100000 64 1) none .single x wo (ix2 p (0 : Fin 1))
    + (broadcastInDim Cert.ReferenceIdeal.S100000x1 ![0, 1] Cert.ReferenceIdeal.Gen.bcast_S1x1_S100000x1_0_1
        (broadcastInDim Cert.ReferenceIdeal.S1x1 ![1] Cert.ReferenceIdeal.Gen.bcast_S1_S1x1_1 bo)) (ix2 p (0 : Fin 1))
  rw [Cert.PlainDot.dotGeneral_apply (M := 100000) (K := 64) (N := 1) none .single x wo p (0 : Fin 1)]
  rw [broadcastInDim_apply ![0, 1] Cert.ReferenceIdeal.Gen.bcast_S1x1_S100000x1_0_1 _ (ix2 p (0 : Fin 1)) (ix2 (0 : Fin 1) (0 : Fin 1)) (fun a => by
    match a with
    | ⟨0, _⟩ => rfl
    | ⟨1, _⟩ => rfl)]
  rw [broadcastInDim_apply ![1] Cert.ReferenceIdeal.Gen.bcast_S1_S1x1_1 bo (ix2 (0 : Fin 1) (0 : Fin 1)) (ix1 (0 : Fin 1)) (fun a => by
    match a with
    | ⟨0, _⟩ => rfl)]

end Cert.KernelIdeal.Readout

end
-- ==== Proof.LibHostRead.lean ====
/-
  Reading a buffer after a stretch of host operations, some of them from outlined functions.

  The contents of a device's buffers after a list of host operations are a fold over the list (`StableHlo.after`): each
  operation replaces its result buffer by its function of its operands' contents and leaves every other buffer. Read at one
  buffer, the fold is that buffer's composed term of the contents before the list.

  An outlined function's operations (a `where`, a `relu`) name their buffers through typed references, and what such an
  operation reads or writes is moved between the value's type and the buffer's own type by a transport along an equation
  between the two types. For a typed reference to a literal buffer that equation holds by computation, so the transport is
  the identity: `toBuf_of` and `ofBuf_of`, by reflexivity, for any signature and any type of values. Rewriting with them
  removes every transport from a composed term. That matters for what comes next: an equation between two composed terms
  with the same operations at the same places is decided argument by argument, but a transport at the head of one side
  hides that, and the comparison then opens `select`, the float comparison or `maximumf` down to their elementwise
  definitions and from there the host's scatter and gather over their whole index ranges.

  `read_results` does the reading: one simp pass over the fold; then, for results the pass leaves standing inside a list
  of operands (the pieces of a `concatenate`), the same two rules by rewriting in place until none applies; then the
  transports. What is left is an equation between terms of the PureOps operations over the contents before the list.
-/
import Idealize.ShloMosaic.Lib.StableHlo.Run

namespace Cert.HostRead

open Idealize.ShloMosaic Idealize.ShloMosaic.StableHlo

variable {sig : RefSig} {Val : EltTy → Type}

/-- Contents moved to a literal buffer's own type are themselves. -/
theorem toBuf_of (r : Ref sig .tc) (h1 : r.ty = r.ty) (h2 : r.space ≠ .host) (h3 : r.isScoped = false)
    (v : r.ty.Contents Val) : (TRef.of r h1 h2 h3 : TRef sig r.ty).toBuf v = v := rfl

/-- Contents moved back from a literal buffer's own type are themselves. -/
theorem ofBuf_of (r : Ref sig .tc) (h1 : r.ty = r.ty) (h2 : r.space ≠ .host) (h3 : r.isScoped = false)
    (v : r.ty.Contents Val) : (TRef.of r h1 h2 h3 : TRef sig r.ty).ofBuf v = v := rfl

/-- Reads a goal `after ops V (Proc.devRef .tc r) = …`, `ops` a literal list of operations over literal buffers, as the
    operations' composed term of `V` at the buffers the list does not write. -/
macro "read_results" : tactic =>
  `(tactic| (after_results_simp
             repeat (first
               | rw [nullary_result] | rw [unary_result] | rw [binary_result] | rw [ternary_result] | rw [reshape_result]
               | (rw [nullary_result_ne]; rotate_left; decide)
               | (rw [unary_result_ne]; rotate_left; decide)
               | (rw [binary_result_ne]; rotate_left; decide)
               | (rw [ternary_result_ne]; rotate_left; decide)
               | (rw [reshape_result_ne]; rotate_left; decide))
             repeat (first | rw [toBuf_of] | rw [ofBuf_of])))

end Cert.HostRead
-- ==== Proof.KernelReading.lean ====
/-
  What the kernel program computes: its result buffer, read back through the whole program, is the network of
  `Cert.Gcn.network` applied to the eight argument arrays.

  The program alternates stretches of host operations with five tiled kernels. Reading backwards from the result:
  the result is column 0 of the readout kernel's 100000×128 array; that kernel's inputs are the second layer's output and
  the output matrix and bias widened by zero padding; each layer is a product kernel (the features times a weight
  matrix), then the host's gather, weighting and scatter-add over the edge list, then a kernel adding the bias and taking
  the positive part. The source and target lists with their self-loops and the edge weights are built once, before the
  first kernel, by the same host operations the reference uses, and both layers read them. A kernel or a host
  stretch leaves every buffer it does not write as it found it, which is how the lists, the weights and the arguments
  reach the places they are read.
-/
import proofs.«131221_j38603166056515_1_alg».proof.Proof.Gen.KernelIdeal.Frame
import proofs.«131221_j38603166056515_1_alg».proof.Proof.FirstProduct
import proofs.«131221_j38603166056515_1_alg».proof.Proof.FirstBias
import proofs.«131221_j38603166056515_1_alg».proof.Proof.SecondProduct
import proofs.«131221_j38603166056515_1_alg».proof.Proof.SecondBias
import proofs.«131221_j38603166056515_1_alg».proof.Proof.Readout
import proofs.«131221_j38603166056515_1_alg».proof.Proof.Network
import proofs.«131221_j38603166056515_1_alg».proof.Proof.LibHostRead

set_option maxRecDepth 16384

noncomputable section

namespace Cert.KernelIdeal.Reading

open Cert.KernelIdeal Cert.KernelIdeal.Gen Cert.HostRead
open Idealize.ShloMosaic Idealize.ShloMosaic.TcCoe Idealize.SL.Sem Idealize.ShloMosaic.StableHlo Idealize.ShloMosaic.Pipeline

variable (m : (ℓ : Loc nD τ sig) → Buf (Elt Ideal) ℓ) (ρ : Dev nD → PrngReg) (c : Dev nD)

/-! ## Before the first kernel: the lists, the weights, the arguments -/

set_option maxHeartbeats 4000000 in
/-- The source list with its self-loops. -/
theorem W3_sources : W3 m ρ c (Proc.devRef .tc main_v5) = Cert.Gcn.sources (F := Ideal) (m ((c : Thread nD τ).loc main_arg1)) := by
  show StableHlo.after hostOps0_2 (StableHlo.after hostOps0_1 (StableHlo.after hostOps0 (W0 m ρ c))) (Proc.devRef .tc main_v5) = _
  read_results
  rfl

set_option maxHeartbeats 4000000 in
/-- The target list with its self-loops. -/
theorem W3_targets : W3 m ρ c (Proc.devRef .tc main_v6) = Cert.Gcn.targets (F := Ideal) (m ((c : Thread nD τ).loc main_arg1)) := by
  show StableHlo.after hostOps0_2 (StableHlo.after hostOps0_1 (StableHlo.after hostOps0 (W0 m ρ c))) (Proc.devRef .tc main_v6) = _
  read_results
  rfl

set_option maxHeartbeats 16000000 in
/-- The edge weights. -/
theorem W3_weight : W3 m ρ c (Proc.devRef .tc main_v34) = Cert.Gcn.weight (F := Ideal) (m ((c : Thread nD τ).loc main_arg1)) := by
  show StableHlo.after hostOps0_2 (StableHlo.after hostOps0_1 (StableHlo.after hostOps0 (W0 m ρ c))) (Proc.devRef .tc main_v34) = _
  read_results
  rfl

set_option maxHeartbeats 4000000 in
theorem W3_arg0 : W3 m ρ c (Proc.devRef .tc main_arg0) = (m ((c : Thread nD τ).loc main_arg0)) := by
  show StableHlo.after hostOps0_2 (StableHlo.after hostOps0_1 (StableHlo.after hostOps0 (W0 m ρ c))) (Proc.devRef .tc main_arg0) = _
  after_results_simp <;> rfl

set_option maxHeartbeats 4000000 in
theorem W3_arg2 : W3 m ρ c (Proc.devRef .tc main_arg2) = (m ((c : Thread nD τ).loc main_arg2)) := by
  show StableHlo.after hostOps0_2 (StableHlo.after hostOps0_1 (StableHlo.after hostOps0 (W0 m ρ c))) (Proc.devRef .tc main_arg2) = _
  after_results_simp <;> rfl

set_option maxHeartbeats 4000000 in
theorem W3_arg3 : W3 m ρ c (Proc.devRef .tc main_arg3) = (m ((c : Thread nD τ).loc main_arg3)) := by
  show StableHlo.after hostOps0_2 (StableHlo.after hostOps0_1 (StableHlo.after hostOps0 (W0 m ρ c))) (Proc.devRef .tc main_arg3) = _
  after_results_simp <;> rfl

set_option maxHeartbeats 4000000 in
theorem W3_arg4 : W3 m ρ c (Proc.devRef .tc main_arg4) = (m ((c : Thread nD τ).loc main_arg4)) := by
  show StableHlo.after hostOps0_2 (StableHlo.after hostOps0_1 (StableHlo.after hostOps0 (W0 m ρ c))) (Proc.devRef .tc main_arg4) = _
  after_results_simp <;> rfl

set_option maxHeartbeats 4000000 in
theorem W3_arg5 : W3 m ρ c (Proc.devRef .tc main_arg5) = (m ((c : Thread nD τ).loc main_arg5)) := by
  show StableHlo.after hostOps0_2 (StableHlo.after hostOps0_1 (StableHlo.after hostOps0 (W0 m ρ c))) (Proc.devRef .tc main_arg5) = _
  after_results_simp <;> rfl

set_option maxHeartbeats 4000000 in
theorem W3_arg6 : W3 m ρ c (Proc.devRef .tc main_arg6) = (m ((c : Thread nD τ).loc main_arg6)) := by
  show StableHlo.after hostOps0_2 (StableHlo.after hostOps0_1 (StableHlo.after hostOps0 (W0 m ρ c))) (Proc.devRef .tc main_arg6) = _
  after_results_simp <;> rfl

set_option maxHeartbeats 4000000 in
theorem W3_arg7 : W3 m ρ c (Proc.devRef .tc main_arg7) = (m ((c : Thread nD τ).loc main_arg7)) := by
  show StableHlo.after hostOps0_2 (StableHlo.after hostOps0_1 (StableHlo.after hostOps0 (W0 m ρ c))) (Proc.devRef .tc main_arg7) = _
  after_results_simp <;> rfl

/-! ## What each kernel and each host stretch leaves alone -/

theorem W4_main_v5 : W4 m ρ c (Proc.devRef .tc main_v5) = W3 m ρ c (Proc.devRef .tc main_v5) := W4_of_ne m ρ c main_v5 (by decide)

theorem W4_main_v6 : W4 m ρ c (Proc.devRef .tc main_v6) = W3 m ρ c (Proc.devRef .tc main_v6) := W4_of_ne m ρ c main_v6 (by decide)

theorem W4_main_v34 : W4 m ρ c (Proc.devRef .tc main_v34) = W3 m ρ c (Proc.devRef .tc main_v34) := W4_of_ne m ρ c main_v34 (by decide)

theorem W4_main_arg3 : W4 m ρ c (Proc.devRef .tc main_arg3) = W3 m ρ c (Proc.devRef .tc main_arg3) := W4_of_ne m ρ c main_arg3 (by decide)

theorem W4_main_arg4 : W4 m ρ c (Proc.devRef .tc main_arg4) = W3 m ρ c (Proc.devRef .tc main_arg4) := W4_of_ne m ρ c main_arg4 (by decide)

theorem W4_main_arg5 : W4 m ρ c (Proc.devRef .tc main_arg5) = W3 m ρ c (Proc.devRef .tc main_arg5) := W4_of_ne m ρ c main_arg5 (by decide)

theorem W4_main_arg6 : W4 m ρ c (Proc.devRef .tc main_arg6) = W3 m ρ c (Proc.devRef .tc main_arg6) := W4_of_ne m ρ c main_arg6 (by decide)

theorem W4_main_arg7 : W4 m ρ c (Proc.devRef .tc main_arg7) = W3 m ρ c (Proc.devRef .tc main_arg7) := W4_of_ne m ρ c main_arg7 (by decide)

theorem W5_main_v5 : W5 m ρ c (Proc.devRef .tc main_v5) = W4 m ρ c (Proc.devRef .tc main_v5) := by
  show StableHlo.after hostOps1 (W4 m ρ c) (Proc.devRef .tc main_v5) = _
  after_results_simp

theorem W5_main_v6 : W5 m ρ c (Proc.devRef .tc main_v6) = W4 m ρ c (Proc.devRef .tc main_v6) := by
  show StableHlo.after hostOps1 (W4 m ρ c) (Proc.devRef .tc main_v6) = _
  after_results_simp

theorem W5_main_v34 : W5 m ρ c (Proc.devRef .tc main_v34) = W4 m ρ c (Proc.devRef .tc main_v34) := by
  show StableHlo.after hostOps1 (W4 m ρ c) (Proc.devRef .tc main_v34) = _
  after_results_simp

theorem W5_main_arg4 : W5 m ρ c (Proc.devRef .tc main_arg4) = W4 m ρ c (Proc.devRef .tc main_arg4) := by
  show StableHlo.after hostOps1 (W4 m ρ c) (Proc.devRef .tc main_arg4) = _
  after_results_simp

theorem W5_main_arg5 : W5 m ρ c (Proc.devRef .tc main_arg5) = W4 m ρ c (Proc.devRef .tc main_arg5) := by
  show StableHlo.after hostOps1 (W4 m ρ c) (Proc.devRef .tc main_arg5) = _
  after_results_simp

theorem W5_main_arg6 : W5 m ρ c (Proc.devRef .tc main_arg6) = W4 m ρ c (Proc.devRef .tc main_arg6) := by
  show StableHlo.after hostOps1 (W4 m ρ c) (Proc.devRef .tc main_arg6) = _
  after_results_simp

theorem W5_main_arg7 : W5 m ρ c (Proc.devRef .tc main_arg7) = W4 m ρ c (Proc.devRef .tc main_arg7) := by
  show StableHlo.after hostOps1 (W4 m ρ c) (Proc.devRef .tc main_arg7) = _
  after_results_simp

theorem W6_main_v5 : W6 m ρ c (Proc.devRef .tc main_v5) = W5 m ρ c (Proc.devRef .tc main_v5) := W6_of_ne m ρ c main_v5 (by decide)

theorem W6_main_v6 : W6 m ρ c (Proc.devRef .tc main_v6) = W5 m ρ c (Proc.devRef .tc main_v6) := W6_of_ne m ρ c main_v6 (by decide)

theorem W6_main_v34 : W6 m ρ c (Proc.devRef .tc main_v34) = W5 m ρ c (Proc.devRef .tc main_v34) := W6_of_ne m ρ c main_v34 (by decide)

theorem W6_main_arg4 : W6 m ρ c (Proc.devRef .tc main_arg4) = W5 m ρ c (Proc.devRef .tc main_arg4) := W6_of_ne m ρ c main_arg4 (by decide)

theorem W6_main_arg5 : W6 m ρ c (Proc.devRef .tc main_arg5) = W5 m ρ c (Proc.devRef .tc main_arg5) := W6_of_ne m ρ c main_arg5 (by decide)

theorem W6_main_arg6 : W6 m ρ c (Proc.devRef .tc main_arg6) = W5 m ρ c (Proc.devRef .tc main_arg6) := W6_of_ne m ρ c main_arg6 (by decide)

theorem W6_main_arg7 : W6 m ρ c (Proc.devRef .tc main_arg7) = W5 m ρ c (Proc.devRef .tc main_arg7) := W6_of_ne m ρ c main_arg7 (by decide)

theorem W7_main_v5 : W7 m ρ c (Proc.devRef .tc main_v5) = W6 m ρ c (Proc.devRef .tc main_v5) := W7_of_ne m ρ c main_v5 (by decide)

theorem W7_main_v6 : W7 m ρ c (Proc.devRef .tc main_v6) = W6 m ρ c (Proc.devRef .tc main_v6) := W7_of_ne m ρ c main_v6 (by decide)

theorem W7_main_v34 : W7 m ρ c (Proc.devRef .tc main_v34) = W6 m ρ c (Proc.devRef .tc main_v34) := W7_of_ne m ρ c main_v34 (by decide)

theorem W7_main_arg5 : W7 m ρ c (Proc.devRef .tc main_arg5) = W6 m ρ c (Proc.devRef .tc main_arg5) := W7_of_ne m ρ c main_arg5 (by decide)

theorem W7_main_arg6 : W7 m ρ c (Proc.devRef .tc main_arg6) = W6 m ρ c (Proc.devRef .tc main_arg6) := W7_of_ne m ρ c main_arg6 (by decide)

theorem W7_main_arg7 : W7 m ρ c (Proc.devRef .tc main_arg7) = W6 m ρ c (Proc.devRef .tc main_arg7) := W7_of_ne m ρ c main_arg7 (by decide)

theorem W8_main_arg6 : W8 m ρ c (Proc.devRef .tc main_arg6) = W7 m ρ c (Proc.devRef .tc main_arg6) := by
  show StableHlo.after hostOps3 (W7 m ρ c) (Proc.devRef .tc main_arg6) = _
  after_results_simp

theorem W8_main_arg7 : W8 m ρ c (Proc.devRef .tc main_arg7) = W7 m ρ c (Proc.devRef .tc main_arg7) := by
  show StableHlo.after hostOps3 (W7 m ρ c) (Proc.devRef .tc main_arg7) = _
  after_results_simp

theorem W9_main_arg6 : W9 m ρ c (Proc.devRef .tc main_arg6) = W8 m ρ c (Proc.devRef .tc main_arg6) := W9_of_ne m ρ c main_arg6 (by decide)

theorem W9_main_arg7 : W9 m ρ c (Proc.devRef .tc main_arg7) = W8 m ρ c (Proc.devRef .tc main_arg7) := W9_of_ne m ρ c main_arg7 (by decide)

/-! ## The lists, the weights and the arguments where they are read -/
theorem at4_main_v5 : W4 m ρ c (Proc.devRef .tc main_v5) = Cert.Gcn.sources (F := Ideal) (m ((c : Thread nD τ).loc main_arg1)) := (W4_main_v5 m ρ c).trans (W3_sources m ρ c)
theorem at4_main_v6 : W4 m ρ c (Proc.devRef .tc main_v6) = Cert.Gcn.targets (F := Ideal) (m ((c : Thread nD τ).loc main_arg1)) := (W4_main_v6 m ρ c).trans (W3_targets m ρ c)
theorem at4_main_v34 : W4 m ρ c (Proc.devRef .tc main_v34) = Cert.Gcn.weight (F := Ideal) (m ((c : Thread nD τ).loc main_arg1)) := (W4_main_v34 m ρ c).trans (W3_weight m ρ c)
theorem at4_main_arg3 : W4 m ρ c (Proc.devRef .tc main_arg3) = (m ((c : Thread nD τ).loc main_arg3)) := (W4_main_arg3 m ρ c).trans (W3_arg3 m ρ c)
theorem at4_main_arg4 : W4 m ρ c (Proc.devRef .tc main_arg4) = (m ((c : Thread nD τ).loc main_arg4)) := (W4_main_arg4 m ρ c).trans (W3_arg4 m ρ c)
theorem at4_main_arg5 : W4 m ρ c (Proc.devRef .tc main_arg5) = (m ((c : Thread nD τ).loc main_arg5)) := (W4_main_arg5 m ρ c).trans (W3_arg5 m ρ c)
theorem at4_main_arg6 : W4 m ρ c (Proc.devRef .tc main_arg6) = (m ((c : Thread nD τ).loc main_arg6)) := (W4_main_arg6 m ρ c).trans (W3_arg6 m ρ c)
theorem at4_main_arg7 : W4 m ρ c (Proc.devRef .tc main_arg7) = (m ((c : Thread nD τ).loc main_arg7)) := (W4_main_arg7 m ρ c).trans (W3_arg7 m ρ c)
theorem at5_main_v5 : W5 m ρ c (Proc.devRef .tc main_v5) = Cert.Gcn.sources (F := Ideal) (m ((c : Thread nD τ).loc main_arg1)) := (W5_main_v5 m ρ c).trans (at4_main_v5 m ρ c)
theorem at5_main_v6 : W5 m ρ c (Proc.devRef .tc main_v6) = Cert.Gcn.targets (F := Ideal) (m ((c : Thread nD τ).loc main_arg1)) := (W5_main_v6 m ρ c).trans (at4_main_v6 m ρ c)
theorem at5_main_v34 : W5 m ρ c (Proc.devRef .tc main_v34) = Cert.Gcn.weight (F := Ideal) (m ((c : Thread nD τ).loc main_arg1)) := (W5_main_v34 m ρ c).trans (at4_main_v34 m ρ c)
theorem at5_main_arg4 : W5 m ρ c (Proc.devRef .tc main_arg4) = (m ((c : Thread nD τ).loc main_arg4)) := (W5_main_arg4 m ρ c).trans (at4_main_arg4 m ρ c)
theorem at5_main_arg5 : W5 m ρ c (Proc.devRef .tc main_arg5) = (m ((c : Thread nD τ).loc main_arg5)) := (W5_main_arg5 m ρ c).trans (at4_main_arg5 m ρ c)
theorem at5_main_arg6 : W5 m ρ c (Proc.devRef .tc main_arg6) = (m ((c : Thread nD τ).loc main_arg6)) := (W5_main_arg6 m ρ c).trans (at4_main_arg6 m ρ c)
theorem at5_main_arg7 : W5 m ρ c (Proc.devRef .tc main_arg7) = (m ((c : Thread nD τ).loc main_arg7)) := (W5_main_arg7 m ρ c).trans (at4_main_arg7 m ρ c)
theorem at6_main_v5 : W6 m ρ c (Proc.devRef .tc main_v5) = Cert.Gcn.sources (F := Ideal) (m ((c : Thread nD τ).loc main_arg1)) := (W6_main_v5 m ρ c).trans (at5_main_v5 m ρ c)
theorem at6_main_v6 : W6 m ρ c (Proc.devRef .tc main_v6) = Cert.Gcn.targets (F := Ideal) (m ((c : Thread nD τ).loc main_arg1)) := (W6_main_v6 m ρ c).trans (at5_main_v6 m ρ c)
theorem at6_main_v34 : W6 m ρ c (Proc.devRef .tc main_v34) = Cert.Gcn.weight (F := Ideal) (m ((c : Thread nD τ).loc main_arg1)) := (W6_main_v34 m ρ c).trans (at5_main_v34 m ρ c)
theorem at6_main_arg4 : W6 m ρ c (Proc.devRef .tc main_arg4) = (m ((c : Thread nD τ).loc main_arg4)) := (W6_main_arg4 m ρ c).trans (at5_main_arg4 m ρ c)
theorem at6_main_arg5 : W6 m ρ c (Proc.devRef .tc main_arg5) = (m ((c : Thread nD τ).loc main_arg5)) := (W6_main_arg5 m ρ c).trans (at5_main_arg5 m ρ c)
theorem at6_main_arg6 : W6 m ρ c (Proc.devRef .tc main_arg6) = (m ((c : Thread nD τ).loc main_arg6)) := (W6_main_arg6 m ρ c).trans (at5_main_arg6 m ρ c)
theorem at6_main_arg7 : W6 m ρ c (Proc.devRef .tc main_arg7) = (m ((c : Thread nD τ).loc main_arg7)) := (W6_main_arg7 m ρ c).trans (at5_main_arg7 m ρ c)
theorem at7_main_v5 : W7 m ρ c (Proc.devRef .tc main_v5) = Cert.Gcn.sources (F := Ideal) (m ((c : Thread nD τ).loc main_arg1)) := (W7_main_v5 m ρ c).trans (at6_main_v5 m ρ c)
theorem at7_main_v6 : W7 m ρ c (Proc.devRef .tc main_v6) = Cert.Gcn.targets (F := Ideal) (m ((c : Thread nD τ).loc main_arg1)) := (W7_main_v6 m ρ c).trans (at6_main_v6 m ρ c)
theorem at7_main_v34 : W7 m ρ c (Proc.devRef .tc main_v34) = Cert.Gcn.weight (F := Ideal) (m ((c : Thread nD τ).loc main_arg1)) := (W7_main_v34 m ρ c).trans (at6_main_v34 m ρ c)
theorem at7_main_arg5 : W7 m ρ c (Proc.devRef .tc main_arg5) = (m ((c : Thread nD τ).loc main_arg5)) := (W7_main_arg5 m ρ c).trans (at6_main_arg5 m ρ c)
theorem at7_main_arg6 : W7 m ρ c (Proc.devRef .tc main_arg6) = (m ((c : Thread nD τ).loc main_arg6)) := (W7_main_arg6 m ρ c).trans (at6_main_arg6 m ρ c)
theorem at7_main_arg7 : W7 m ρ c (Proc.devRef .tc main_arg7) = (m ((c : Thread nD τ).loc main_arg7)) := (W7_main_arg7 m ρ c).trans (at6_main_arg7 m ρ c)
theorem at8_main_arg6 : W8 m ρ c (Proc.devRef .tc main_arg6) = (m ((c : Thread nD τ).loc main_arg6)) := (W8_main_arg6 m ρ c).trans (at7_main_arg6 m ρ c)
theorem at8_main_arg7 : W8 m ρ c (Proc.devRef .tc main_arg7) = (m ((c : Thread nD τ).loc main_arg7)) := (W8_main_arg7 m ρ c).trans (at7_main_arg7 m ρ c)
theorem at9_main_arg6 : W9 m ρ c (Proc.devRef .tc main_arg6) = (m ((c : Thread nD τ).loc main_arg6)) := (W9_main_arg6 m ρ c).trans (at8_main_arg6 m ρ c)
theorem at9_main_arg7 : W9 m ρ c (Proc.devRef .tc main_arg7) = (m ((c : Thread nD τ).loc main_arg7)) := (W9_main_arg7 m ρ c).trans (at8_main_arg7 m ρ c)

/-! ## The first layer -/

/-- After the first kernel: the node features times the first weight matrix. -/
theorem first_transform : W4 m ρ c (Proc.devRef .tc main_v35) = (Cert.Gcn.transform (F := Ideal) (m ((c : Thread nD τ).loc main_arg0)) (m ((c : Thread nD τ).loc main_arg2))) := by
  refine (W4_arr m ρ c 2).trans ?_
  refine (Cert.KernelIdeal.FirstProduct.whole (V3 m ρ) c).trans ?_
  show Cert.KernelIdeal.FirstProduct.product (W3 m ρ c (Proc.devRef .tc main_arg0)) (W3 m ρ c (Proc.devRef .tc main_arg2)) = _
  rw [W3_arg0 m ρ c, W3_arg2 m ρ c]
  rfl

set_option maxHeartbeats 16000000 in
/-- After the host's gather, weighting and scatter-add: the first layer's aggregation. -/
theorem first_aggregate : W5 m ρ c (Proc.devRef .tc main_v48) = Cert.Gcn.aggregate (F := Ideal) (m ((c : Thread nD τ).loc main_arg1)) (Cert.Gcn.transform (F := Ideal) (m ((c : Thread nD τ).loc main_arg0)) (m ((c : Thread nD τ).loc main_arg2))) := by
  show StableHlo.after hostOps1 (W4 m ρ c) (Proc.devRef .tc main_v48) = _
  read_results
  rw [first_transform m ρ c, at4_main_v5 m ρ c, at4_main_v6 m ρ c, at4_main_v34 m ρ c]
  rfl

/-- The first bias as a 1×64 row. -/
theorem first_bias_row : W5 m ρ c (Proc.devRef .tc main_v49) = shapeCast S1x64 (m ((c : Thread nD τ).loc main_arg3)) shapeCasts_S64_S1x64 := by
  show StableHlo.after hostOps1 (W4 m ρ c) (Proc.devRef .tc main_v49) = _
  read_results
  rw [at4_main_arg3 m ρ c]
  rfl

/-- After the second kernel: the first layer's output. -/
theorem first_layer : W6 m ρ c (Proc.devRef .tc main_v50) = (Cert.Gcn.layer (F := Ideal) (m ((c : Thread nD τ).loc main_arg1)) (m ((c : Thread nD τ).loc main_arg0)) (m ((c : Thread nD τ).loc main_arg2)) (m ((c : Thread nD τ).loc main_arg3))) := by
  refine (W6_arr m ρ c 2).trans ?_
  refine (Cert.KernelIdeal.FirstBias.whole (V5 m ρ) c (m ((c : Thread nD τ).loc main_arg3)) (first_bias_row m ρ c)).trans ?_
  show Cert.Gcn.biasRelu (F := Ideal) (W5 m ρ c (Proc.devRef .tc main_v48)) (m ((c : Thread nD τ).loc main_arg3)) = _
  rw [first_aggregate m ρ c]
  rfl

/-! ## The second layer -/

/-- After the third kernel: the first layer's output times the second weight matrix. -/
theorem second_transform : W7 m ρ c (Proc.devRef .tc main_v51) = (Cert.Gcn.transform (F := Ideal) (Cert.Gcn.layer (F := Ideal) (m ((c : Thread nD τ).loc main_arg1)) (m ((c : Thread nD τ).loc main_arg0)) (m ((c : Thread nD τ).loc main_arg2)) (m ((c : Thread nD τ).loc main_arg3))) (m ((c : Thread nD τ).loc main_arg4))) := by
  refine (W7_arr m ρ c 2).trans ?_
  refine (Cert.KernelIdeal.SecondProduct.whole (V6 m ρ) c).trans ?_
  show Cert.KernelIdeal.SecondProduct.product (W6 m ρ c (Proc.devRef .tc main_v50)) (W6 m ρ c (Proc.devRef .tc main_arg4)) = _
  rw [first_layer m ρ c, at6_main_arg4 m ρ c]
  rfl

set_option maxHeartbeats 16000000 in
/-- The second layer's aggregation. -/
theorem second_aggregate : W8 m ρ c (Proc.devRef .tc main_v64) = Cert.Gcn.aggregate (F := Ideal) (m ((c : Thread nD τ).loc main_arg1)) (Cert.Gcn.transform (F := Ideal) (Cert.Gcn.layer (F := Ideal) (m ((c : Thread nD τ).loc main_arg1)) (m ((c : Thread nD τ).loc main_arg0)) (m ((c : Thread nD τ).loc main_arg2)) (m ((c : Thread nD τ).loc main_arg3))) (m ((c : Thread nD τ).loc main_arg4))) := by
  show StableHlo.after hostOps3 (W7 m ρ c) (Proc.devRef .tc main_v64) = _
  read_results
  rw [second_transform m ρ c, at7_main_v5 m ρ c, at7_main_v6 m ρ c, at7_main_v34 m ρ c]
  rfl

/-- The second bias as a 1×64 row. -/
theorem second_bias_row : W8 m ρ c (Proc.devRef .tc main_v65) = shapeCast S1x64 (m ((c : Thread nD τ).loc main_arg5)) shapeCasts_S64_S1x64 := by
  show StableHlo.after hostOps3 (W7 m ρ c) (Proc.devRef .tc main_v65) = _
  read_results
  rw [at7_main_arg5 m ρ c]
  rfl

/-- After the fourth kernel: the second layer's output. -/
theorem second_layer : W9 m ρ c (Proc.devRef .tc main_v66) = (Cert.Gcn.layer (F := Ideal) (m ((c : Thread nD τ).loc main_arg1)) (Cert.Gcn.layer (F := Ideal) (m ((c : Thread nD τ).loc main_arg1)) (m ((c : Thread nD τ).loc main_arg0)) (m ((c : Thread nD τ).loc main_arg2)) (m ((c : Thread nD τ).loc main_arg3))) (m ((c : Thread nD τ).loc main_arg4)) (m ((c : Thread nD τ).loc main_arg5))) := by
  refine (W9_arr m ρ c 2).trans ?_
  refine (Cert.KernelIdeal.SecondBias.whole (V8 m ρ) c (m ((c : Thread nD τ).loc main_arg5)) (second_bias_row m ρ c)).trans ?_
  show Cert.Gcn.biasRelu (F := Ideal) (W8 m ρ c (Proc.devRef .tc main_v64)) (m ((c : Thread nD τ).loc main_arg5)) = _
  rw [second_aggregate m ρ c]
  rfl

/-! ## The readout -/

/-- The readout kernel's left operand is the second layer's output: the paddings in between do not write it. -/
theorem readout_features : W14 m ρ c (Proc.devRef .tc main_v66) = (Cert.Gcn.layer (F := Ideal) (m ((c : Thread nD τ).loc main_arg1)) (Cert.Gcn.layer (F := Ideal) (m ((c : Thread nD τ).loc main_arg1)) (m ((c : Thread nD τ).loc main_arg0)) (m ((c : Thread nD τ).loc main_arg2)) (m ((c : Thread nD τ).loc main_arg3))) (m ((c : Thread nD τ).loc main_arg4)) (m ((c : Thread nD τ).loc main_arg5))) := by
  show StableHlo.after hostOps4_4 (StableHlo.after hostOps4_3 (StableHlo.after hostOps4_2 (StableHlo.after hostOps4_1 (StableHlo.after hostOps4 (W9 m ρ c))))) (Proc.devRef .tc main_v66) = _
  after_results_simp
  exact second_layer m ρ c

/-- The output matrix widened to 128 columns by padding on the right. -/
theorem readout_matrix : W14 m ρ c (Proc.devRef .tc main_v67)
    = pad S64x128 ![0, 0] ![0, 127] ![0, 0] (m ((c : Thread nD τ).loc main_arg6)) (sitofp (F := Ideal) .f32 (constantI S_ 32 0#32)) pads_S64x1_S64x128_000_01270 h_S_ := by
  show StableHlo.after hostOps4_4 (StableHlo.after hostOps4_3 (StableHlo.after hostOps4_2 (StableHlo.after hostOps4_1 (StableHlo.after hostOps4 (W9 m ρ c))))) (Proc.devRef .tc main_v67) = _
  read_results
  rw [at9_main_arg6 m ρ c]

/-- The output bias widened to 128 entries by padding on the right, as a 1×128 row. -/
theorem readout_bias_row : W14 m ρ c (Proc.devRef .tc main_v69)
    = shapeCast S1x128 (pad S128 ![0] ![127] ![0] (m ((c : Thread nD τ).loc main_arg7)) (sitofp (F := Ideal) .f32 (constantI S_ 32 0#32)) pads_S1_S128_01270 h_S_) shapeCasts_S128_S1x128 := by
  show StableHlo.after hostOps4_4 (StableHlo.after hostOps4_3 (StableHlo.after hostOps4_2 (StableHlo.after hostOps4_1 (StableHlo.after hostOps4 (W9 m ρ c))))) (Proc.devRef .tc main_v69) = _
  read_results
  rw [at9_main_arg7 m ρ c]
  rfl

/-- After the fifth kernel: the widened readout. -/
theorem readout_widened : W15 m ρ c (Proc.devRef .tc main_v70)
    = Cert.KernelIdeal.Readout.widened (Cert.Gcn.layer (F := Ideal) (m ((c : Thread nD τ).loc main_arg1)) (Cert.Gcn.layer (F := Ideal) (m ((c : Thread nD τ).loc main_arg1)) (m ((c : Thread nD τ).loc main_arg0)) (m ((c : Thread nD τ).loc main_arg2)) (m ((c : Thread nD τ).loc main_arg3))) (m ((c : Thread nD τ).loc main_arg4)) (m ((c : Thread nD τ).loc main_arg5)))
        (pad S64x128 ![0, 0] ![0, 127] ![0, 0] (m ((c : Thread nD τ).loc main_arg6)) (sitofp (F := Ideal) .f32 (constantI S_ 32 0#32)) pads_S64x1_S64x128_000_01270 h_S_)
        (shapeCast S1x128 (pad S128 ![0] ![127] ![0] (m ((c : Thread nD τ).loc main_arg7)) (sitofp (F := Ideal) .f32 (constantI S_ 32 0#32)) pads_S1_S128_01270 h_S_) shapeCasts_S128_S1x128) := by
  refine (W15_arr m ρ c 3).trans ?_
  refine (Cert.KernelIdeal.Readout.whole (V14 m ρ) c).trans ?_
  show Cert.KernelIdeal.Readout.widened (W14 m ρ c (Proc.devRef .tc main_v66)) (W14 m ρ c (Proc.devRef .tc main_v67)) (W14 m ρ c (Proc.devRef .tc main_v69)) = _
  rw [readout_features m ρ c, readout_matrix m ρ c, readout_bias_row m ρ c]

/-- THE RESULT: column 0 of the widened readout is the network of the arguments. -/
theorem result_eq : W16 m ρ c (Proc.devRef .tc main_v71)
    = Cert.Gcn.network (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) := by
  show StableHlo.after hostOps5 (W15 m ρ c) (Proc.devRef .tc main_v71) = _
  read_results
  rw [readout_widened m ρ c]
  exact Cert.KernelIdeal.Readout.column_zero (Cert.Gcn.layer (F := Ideal) (m ((c : Thread nD τ).loc main_arg1)) (Cert.Gcn.layer (F := Ideal) (m ((c : Thread nD τ).loc main_arg1)) (m ((c : Thread nD τ).loc main_arg0)) (m ((c : Thread nD τ).loc main_arg2)) (m ((c : Thread nD τ).loc main_arg3))) (m ((c : Thread nD τ).loc main_arg4)) (m ((c : Thread nD τ).loc main_arg5))) (m ((c : Thread nD τ).loc main_arg6)) (m ((c : Thread nD τ).loc main_arg7)) (sitofp (F := Ideal) .f32 (constantI S_ 32 0#32))

end Cert.KernelIdeal.Reading

end
-- ==== Proof.KernelRun.lean ====
/-
  The kernel program's run, with its result.

  Every weakly fair execution of the program terminates without a fault, and in the final state every buffer that
  outlives the kernels holds what the fold through the program leaves in it: the host stretches' results and each kernel's
  arrays after its last block. Read at the result buffer that is the network of the arguments (`Reading.result_eq`); read
  at an argument it is the argument as launched.
-/
import proofs.«131221_j38603166056515_1_alg».proof.Proof.Gen.KernelIdeal.Frame
import proofs.«131221_j38603166056515_1_alg».proof.Proof.KernelReading

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution terminates, nothing faulting, with every buffer that outlives the kernels at the fold's
    final contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W16 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W16 m ρ c b)
    (hfin := fun c s' => by
      iintro ⟨⟨Hh, -⟩, HSI⟩
      unfold StableHlo.held
      imodintro
      iapply (pointsTo_read_all (Pipeline.ucRefs τ sig) (fun b => (((c : Thread nD τ)).1, b)) (W16 m ρ c) s')
      isplitl [Hh] <;> iassumption)
    (hQ := fun s h => h)

end Cert.KernelIdeal.Run

namespace Cert.KernelIdeal.Run

open Cert.KernelIdeal Cert.KernelIdeal.Gen
open Idealize.ShloMosaic Idealize.ShloMosaic.TcCoe Idealize.SL.Sem

variable (m : (ℓ : Loc nD τ sig) → Buf (Elt Ideal) ℓ) (ρ : Dev nD → PrngReg)

/-- At the ideal instance the program ends with the network of the arguments in its result buffer and the arguments
    unchanged. -/
theorem run : θ_run defs (onTc (τ := τ) (main (F := Ideal))) ⟨m, fun _ => 0, ρ⟩ (fun r => ∀ c : Dev nD,
      r.2.mem ((c.tc : Thread nD τ).loc main_v71)
        = Cert.Gcn.network (F := Ideal) (m ((c : Thread nD τ).loc main_arg0)) (m ((c : Thread nD τ).loc main_arg1))
            (m ((c : Thread nD τ).loc main_arg2)) (m ((c : Thread nD τ).loc main_arg3)) (m ((c : Thread nD τ).loc main_arg4))
            (m ((c : Thread nD τ).loc main_arg5)) (m ((c : Thread nD τ).loc main_arg6)) (m ((c : Thread nD τ).loc main_arg7))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun r h c =>
    ⟨(h c _ (mem_uc main_v71 (by decide))).trans (Cert.KernelIdeal.Reading.result_eq m ρ c),
     (h c _ (mem_uc main_arg0 (by decide))).trans (W16_main_arg0 m ρ c),
     (h c _ (mem_uc main_arg1 (by decide))).trans (W16_main_arg1 m ρ c),
     (h c _ (mem_uc main_arg2 (by decide))).trans (W16_main_arg2 m ρ c),
     (h c _ (mem_uc main_arg3 (by decide))).trans (W16_main_arg3 m ρ c),
     (h c _ (mem_uc main_arg4 (by decide))).trans (W16_main_arg4 m ρ c),
     (h c _ (mem_uc main_arg5 (by decide))).trans (W16_main_arg5 m ρ c),
     (h c _ (mem_uc main_arg6 (by decide))).trans (W16_main_arg6 m ρ c),
     (h c _ (mem_uc main_arg7 (by decide))).trans (W16_main_arg7 m ρ c)⟩)
    (run_all m ρ)

end Cert.KernelIdeal.Run

end
-- ==== Proof.ReferenceReading.lean ====
/-
  What the reference computes: its result buffer, read through the program's operations, is the network of
  `Cert.Gcn.network` applied to the eight argument arrays. The reference builds the source and target lists, the degrees
  and the weights twice, once per layer, from the same edge array by the same operations, so both layers see the same
  lists and weights.
-/
import proofs.«131221_j38603166056515_1_alg».proof.Proof.ReferenceRunPatched
import proofs.«131221_j38603166056515_1_alg».proof.Proof.Network
import proofs.«131221_j38603166056515_1_alg».proof.Proof.LibHostRead

set_option maxRecDepth 16384

noncomputable section

namespace Cert.ReferenceIdeal.Reading

open Cert.ReferenceIdeal Cert.ReferenceIdeal.Gen Cert.ReferenceIdeal.RunP Cert.HostRead
open Idealize.ShloMosaic Idealize.ShloMosaic.TcCoe Idealize.SL.Sem Idealize.ShloMosaic.StableHlo

variable {F : FTy → Type} [FloatOps F]
variable (m : (ℓ : Loc nD τ sig) → Buf (Elt F) ℓ)

set_option maxHeartbeats 56000000 in
/-- The result buffer after the reference's operations is the network of the launch contents of the arguments. -/
theorem result_eq (c : Dev nD) :
    after ops (launchContents m c) (Proc.devRef .tc main_v105)
      = Cert.Gcn.network (F := F) (m ((c.tc : Thread nD τ).loc main_arg0)) (m ((c.tc : Thread nD τ).loc main_arg1))
          (m ((c.tc : Thread nD τ).loc main_arg2)) (m ((c.tc : Thread nD τ).loc main_arg3)) (m ((c.tc : Thread nD τ).loc main_arg4))
          (m ((c.tc : Thread nD τ).loc main_arg5)) (m ((c.tc : Thread nD τ).loc main_arg6)) (m ((c.tc : Thread nD τ).loc main_arg7)) := by
  read_results
  rfl

set_option maxHeartbeats 56000000 in
/-- No operation of the reference writes an argument buffer. -/
theorem args_kept (c : Dev nD) :
    after ops (launchContents m c) (Proc.devRef .tc main_arg0) = m ((c.tc : Thread nD τ).loc main_arg0)
    ∧ after ops (launchContents m c) (Proc.devRef .tc main_arg1) = m ((c.tc : Thread nD τ).loc main_arg1)
    ∧ after ops (launchContents m c) (Proc.devRef .tc main_arg2) = m ((c.tc : Thread nD τ).loc main_arg2)
    ∧ after ops (launchContents m c) (Proc.devRef .tc main_arg3) = m ((c.tc : Thread nD τ).loc main_arg3)
    ∧ after ops (launchContents m c) (Proc.devRef .tc main_arg4) = m ((c.tc : Thread nD τ).loc main_arg4)
    ∧ after ops (launchContents m c) (Proc.devRef .tc main_arg5) = m ((c.tc : Thread nD τ).loc main_arg5)
    ∧ after ops (launchContents m c) (Proc.devRef .tc main_arg6) = m ((c.tc : Thread nD τ).loc main_arg6)
    ∧ after ops (launchContents m c) (Proc.devRef .tc main_arg7) = m ((c.tc : Thread nD τ).loc main_arg7) :=
  ⟨by after_results_simp <;> rfl, by after_results_simp <;> rfl, by after_results_simp <;> rfl, by after_results_simp <;> rfl,
   by after_results_simp <;> rfl, by after_results_simp <;> rfl, by after_results_simp <;> rfl, by after_results_simp <;> rfl⟩

/-- The reference's run: it ends with the network of the arguments in its result buffer and the arguments unchanged. -/
theorem run (ρ : Dev nD → PrngReg) :
    θ_run defs (onTc (τ := τ) (main (F := F))) ⟨m, fun _ => 0, ρ⟩ fun r => ∀ c : Dev nD,
      r.2.mem ((c.tc : Thread nD τ).loc main_v105)
        = Cert.Gcn.network (F := F) (m ((c.tc : Thread nD τ).loc main_arg0)) (m ((c.tc : Thread nD τ).loc main_arg1))
          (m ((c.tc : Thread nD τ).loc main_arg2)) (m ((c.tc : Thread nD τ).loc main_arg3)) (m ((c.tc : Thread nD τ).loc main_arg4))
          (m ((c.tc : Thread nD τ).loc main_arg5)) (m ((c.tc : Thread nD τ).loc main_arg6)) (m ((c.tc : Thread nD τ).loc main_arg7))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7) :=
  (θ_run defs _ _).mono (fun _ h c =>
    have k := args_kept m c
    ⟨(h c main_v105).trans (result_eq m c), (h c main_arg0).trans k.1, (h c main_arg1).trans k.2.1, (h c main_arg2).trans k.2.2.1,
     (h c main_arg3).trans k.2.2.2.1, (h c main_arg4).trans k.2.2.2.2.1, (h c main_arg5).trans k.2.2.2.2.2.1,
     (h c main_arg6).trans k.2.2.2.2.2.2.1, (h c main_arg7).trans k.2.2.2.2.2.2.2⟩)
    (RunP.run m ρ)

end Cert.ReferenceIdeal.Reading

end
-- ==== Proof.lean ====
/-
  A two-layer graph convolution with a linear readout, computed by tiled kernels and by plain array operations.

  Both programs take node features `h` (100000×64), an edge array (2×1600000 endpoints), two 64×64 weight matrices with
  their biases, and a 64×1 output matrix with its bias, and return a 100000×1 array. Each layer multiplies the features by
  its weight matrix, sums for every node the weighted feature rows arriving along its edges and its self-loop (weight
  `deg(source)^(-1/2) · deg(target)^(-1/2)`), adds the bias and takes the positive part; the readout is a last product plus a
  bias. On the extended reals the kernel program computes the same function as the reference:

    * its three matrix products run block by block over 50 blocks of 2000 rows into a zero accumulator, which entry by
      entry is the same sum over the 64 contraction positions as the whole product (a change of float format is the
      identity on the extended reals);
    * its bias-and-positive-part kernels compute `max (a + b) 0` entry by entry, as the reference does;
    * it builds the edge lists, the degrees and the weights once where the reference builds them once per layer, by the
      same operations of the same edge array;
    * it widens the output matrix and bias to 128 columns with zeros and keeps column 0, where the widened arrays hold the
      original entries.

  No law used moves a factor across a sum or cancels anything, so the equality holds at every input, finite or not, and
  the precondition is not opened. Each program's frame (it terminates, faults nowhere, leaves its arguments unchanged) is
  the generated frame for the kernel programs and the reference's run with its result dropped. The idealization rewrote
  nothing, so `preserves` is `True`.
-/
import proofs.«131221_j38603166056515_1_alg».proof.Defs
import proofs.«131221_j38603166056515_1_alg».proof.Proof.Gen.Kernel
import proofs.«131221_j38603166056515_1_alg».proof.Proof.Gen.Kernel.Skeleton
import proofs.«131221_j38603166056515_1_alg».proof.Proof.Gen.Kernel.Launch
import proofs.«131221_j38603166056515_1_alg».proof.Proof.Gen.Kernel.Points
import proofs.«131221_j38603166056515_1_alg».proof.Proof.Gen.Kernel.Frame
import proofs.«131221_j38603166056515_1_alg».proof.Proof.Gen.KernelIdeal
import proofs.«131221_j38603166056515_1_alg».proof.Proof.Gen.KernelIdeal.Skeleton
import proofs.«131221_j38603166056515_1_alg».proof.Proof.Gen.KernelIdeal.Launch
import proofs.«131221_j38603166056515_1_alg».proof.Proof.Gen.KernelIdeal.Points
import proofs.«131221_j38603166056515_1_alg».proof.Proof.Gen.KernelIdeal.Frame
import proofs.«131221_j38603166056515_1_alg».proof.Proof.Gen.ReferenceIdeal
import proofs.«131221_j38603166056515_1_alg».proof.Proof.Gen.Pre_finite_inputs
import proofs.«131221_j38603166056515_1_alg».proof.Proof.KernelRun
import proofs.«131221_j38603166056515_1_alg».proof.Proof.ReferenceReading
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernel_ideal : Cert.frame_KernelIdeal := fun m ρ _ => Cert.KernelIdeal.Gen.frame m ρ

/-- The reference's frame is its run with the result dropped. -/
theorem frame_reference_ideal : Cert.frame_ReferenceIdeal := fun m ρ _ =>
  (θ_run Cert.ReferenceIdeal.defs _ _).mono (fun _ h c => (h c).2) (Cert.ReferenceIdeal.Reading.run (F := Ideal) m ρ)

/-- The idealization rewrote no operation. -/
theorem preserves : Cert.preserves_Kernel_KernelIdeal := trivial

/-- Both programs end with the network of their arguments in their result buffers; the arguments agree. -/
theorem algebraic : Cert.algebraic_KernelIdeal_ReferenceIdeal := by
  intro m ρ m' ρ' _ hagree
  refine ⟨_, Cert.KernelIdeal.Run.run m ρ, ?_⟩
  refine (θ_run Cert.ReferenceIdeal.defs _ _).mono (fun _ h c => ⟨(h c).1.trans ?_, (h c).2⟩)
    (Cert.ReferenceIdeal.Reading.run (F := Ideal) m' ρ')
  obtain ⟨e0, e1, e2, e3, e4, e5, e6, e7⟩ := hagree c
  rw [e0, e1, e2, e3, e4, e5, e6, e7]

theorem claim : Cert.Claim := ⟨Cert.Kernel.Gen.facts, Cert.KernelIdeal.Gen.facts, Cert.ReferenceIdeal.Gen.facts, Cert.Pre_finite_inputs.Gen.facts,
  frame_kernel, frame_kernel_ideal, frame_reference_ideal, preserves, algebraic⟩

end Cert.Proof

end
